-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .bf16⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000x128, .bf16⟩
  | .hbm, ⟨38, _⟩ => ⟨S1650000x128, .f32⟩
  | .hbm, ⟨39, _⟩ => ⟨S_, .f32⟩
  | .hbm, ⟨40, _⟩ => ⟨S50000x128, .f32⟩
  | .hbm, ⟨41, _⟩ => ⟨S1650000x1, .i32⟩
  | .hbm, ⟨42, _⟩ => ⟨S50000x128, .f32⟩
  | .hbm, ⟨43, _⟩ => ⟨S1x128, .f32⟩
  | .hbm, ⟨44, _⟩ => ⟨S50000x64, .bf16⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x64, .bf16⟩
  | .hbm, ⟨54, _⟩ => ⟨S1650000x64, .f32⟩
  | .hbm, ⟨55, _⟩ => ⟨S_, .f32⟩
  | .hbm, ⟨56, _⟩ => ⟨S50000x64, .f32⟩
  | .hbm, ⟨57, _⟩ => ⟨S1650000x1, .i32⟩
  | .hbm, ⟨58, _⟩ => ⟨S50000x64, .f32⟩
  | .hbm, ⟨59, _⟩ => ⟨S1x64, .f32⟩
  | .hbm, ⟨60, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S1650000x1_S1650000_n_0_0_1_wf : ScatterDims.WF S50000 S1650000x1 S1650000 [] [0] [0] 1
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The blocked program's run with its result named: every weakly fair execution of the program from any memory with
  zero counters terminates, nothing faulting, with the argument arrays as launched and the result array holding what the
  last region's write-backs leave (the fold of the host stretches and the three regions over the launch memory, at the
  result's buffer).
-/
import proofs.«133153_j58557584114028_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's segments, the last thread state (every unscoped buffer at the final fold's
    contents) read against the final memory — at the result's buffer as it stands, at each argument's buffer walked
    back to the launch memory. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Spec.lean ====
/-
  The functions this certificate speaks of, over the extended reals, each as one function of whole arrays read
  index by index.

  A graph convolution layer multiplies the node features by a weight matrix, scales every row by its node's
  normalisation factor, sums the rows over the edges that arrive at each node, scales the sum by the arriving node's
  factor and adds a bias. The pieces below are the parts of that computation a blocked program evaluates row block by
  row block: the scaled product, the scaled and shifted sum with or without a rectifier, and the row-wise logarithm of
  the softmax.
-/
import Idealize.ShloMosaic.Lib.ValueIdx
import Idealize.ShloMosaic.PureOps.Ideal

noncomputable section

open scoped BigOperators

namespace Cert.Gcn

open Idealize.ShloMosaic Idealize.ShloMosaic.ValueIdx

/-- An a × b array of extended reals. -/
abbrev Mat (a b : Nat) : Type := (⟨2, ![a, b]⟩ : Shape).Idx → EReal

/-- The row coordinate of an index of an a × b array. -/
abbrev row {a b : Nat} (i : (⟨2, ![a, b]⟩ : Shape).Idx) : Fin a := ⟨(i 0).val, idx2_lt0 i⟩
/-- The column coordinate of an index of an a × b array. -/
abbrev col {a b : Nat} (i : (⟨2, ![a, b]⟩ : Shape).Idx) : Fin b := ⟨(i 1).val, idx2_lt1 i⟩

theorem ix2_row_col {a b : Nat} (i : (⟨2, ![a, b]⟩ : Shape).Idx) : ix2 (row i) (col i) = i := by
  funext d; match d with | ⟨0, _⟩ => rfl | ⟨1, _⟩ => rfl

/-- Entry (n, l) of the product x · w with row n scaled by the n-th entry of the column d:
    (Σ_k x(n, k) · w(k, l)) · d(n). -/
def scaledProductAt {M K L : Nat} (x : Mat M K) (w : Mat K L) (d : Mat M 1) (n : Fin M) (l : Fin L) : EReal :=
  (∑ k : Fin K, x (ix2 n k) * w (ix2 k l)) * d (ix2 n (0 : Fin 1))

/-- The product x · w with every row scaled by the column d, as an array. -/
def scaledProduct {M K L : Nat} (x : Mat M K) (w : Mat K L) (d : Mat M 1) : Mat M L :=
  fun i => scaledProductAt x w d (row i) (col i)

/-- Entry (n, l) of a · diag(d) + b: row n of a scaled by d(n), the one-row array b added to every row. -/
def affineRowsAt {M L : Nat} (a : Mat M L) (d : Mat M 1) (b : Mat 1 L) (n : Fin M) (l : Fin L) : EReal :=
  a (ix2 n l) * d (ix2 n (0 : Fin 1)) + b (ix2 (0 : Fin 1) l)

/-- Every row of a scaled by its entry of the column d, then the row b added. -/
def affineRows {M L : Nat} (a : Mat M L) (d : Mat M 1) (b : Mat 1 L) : Mat M L :=
  fun i => affineRowsAt a d b (row i) (col i)

/-- The rectifier of the scaled and shifted array: max(a(n, l) · d(n) + b(l), 0). -/
def reluAffine {M L : Nat} (a : Mat M L) (d : Mat M 1) (b : Mat 1 L) : Mat M L :=
  fun i => max (affineRowsAt a d b (row i) (col i)) 0

/-- The largest entry of row n of z, as the fold of max from −∞ over the row's L entries. -/
def rowMax {M L : Nat} (z : Mat M L) (n : Fin M) : EReal :=
  (Finset.univ : Finset (Fin L)).fold max (Ideal.ofBits .f32 0xFF800000#32) (fun k => z (ix2 n k))

/-- Entry (n, l) of the logarithm of the row-wise softmax, in its shifted form:
    (z(n, l) − max_n) − log Σ_k exp(z(n, k) − max_n). -/
def logSoftmaxAt {M L : Nat} (z : Mat M L) (n : Fin M) (l : Fin L) : EReal :=
  (z (ix2 n l) - rowMax z n) - Ideal.log (∑ k : Fin L, Ideal.exp (z (ix2 n k) - rowMax z n))

/-- The logarithm of the row-wise softmax of z. -/
def logSoftmaxRows {M L : Nat} (z : Mat M L) : Mat M L :=
  fun i => logSoftmaxAt z (row i) (col i)

theorem scaledProduct_apply {M K L : Nat} (x : Mat M K) (w : Mat K L) (d : Mat M 1) (n : Fin M) (l : Fin L) :
    scaledProduct x w d (ix2 n l) = scaledProductAt x w d n l := rfl
theorem affineRows_apply {M L : Nat} (a : Mat M L) (d : Mat M 1) (b : Mat 1 L) (n : Fin M) (l : Fin L) :
    affineRows a d b (ix2 n l) = affineRowsAt a d b n l := rfl
theorem reluAffine_apply {M L : Nat} (a : Mat M L) (d : Mat M 1) (b : Mat 1 L) (n : Fin M) (l : Fin L) :
    reluAffine a d b (ix2 n l) = max (affineRowsAt a d b n l) 0 := rfl
theorem logSoftmaxRows_apply {M L : Nat} (z : Mat M L) (n : Fin M) (l : Fin L) :
    logSoftmaxRows z (ix2 n l) = logSoftmaxAt z n l := rfl

end Cert.Gcn

end
-- ==== Proof.HostDefs.lean ====
/-
  The host side of the blocked program, as named functions of the edge list.

  From the 2 × 1600000 edge list the program builds the source and destination index lists (each edge row followed by
  the self-loops 0 … 49999), the in-degree of every node (ones scatter-added along the destinations), and the node
  factor δ = 1/√degree where the degree is positive, 0 elsewhere, also as a 50000 × 1 column. Between the regions it
  gathers the rows of the previous region's output at the (negative-wrapped) sources and scatter-adds them along the
  raw destinations.
-/
import proofs.«133153_j58557584114028_2_alg».proof.Proof.Gen.KernelIdeal
import proofs.«133153_j58557584114028_2_alg».proof.Proof.Spec
import Idealize.ShloMosaic.PureOps.Ideal

noncomputable section

namespace Cert.KernelIdeal.Glue

open Cert.KernelIdeal Cert.KernelIdeal.Gen Idealize.ShloMosaic

/-- Two index lists joined end to end, as a function of the two. -/
def catK {α : Type} (a : S1600000.Idx → α) (b : S50000.Idx → α) : S1650000.Idx → α :=
  concatenate S1650000 0 [⟨S1600000, a⟩, ⟨S50000, b⟩] concatenates_S1600000_S50000_S1650000_d0
theorem catK_eq {α : Type} (a : S1600000.Idx → α) (b : S50000.Idx → α) :
    concatenate S1650000 0 [⟨S1600000, a⟩, ⟨S50000, b⟩] concatenates_S1600000_S50000_S1650000_d0 = catK a b := rfl

/-- The edge list: 2 × 1600000 integers. -/
abbrev Edges : Type := IVec S2x1600000 32
/-- A list of 1650000 integer indices. -/
abbrev Indices : Type := IVec S1650000 32

/-- The source indices: row 0 of the edge list, then the self-loops. -/
def srcK (ei : Edges) : Indices :=
  catK (shapeCast S1600000 (extractStridedSlice S1x1600000 ![0, 0] ei slices_S2x1600000_S1x1600000_0_0) shapeCasts_S1x1600000_S1600000)
    (iotaInDim S50000 32 0)
/-- The destination indices: row 1 of the edge list, then the self-loops. -/
def dstK (ei : Edges) : Indices :=
  catK (shapeCast S1600000 (extractStridedSlice S1x1600000 ![1, 0] ei slices_S2x1600000_S1x1600000_1_0) shapeCasts_S1x1600000_S1600000)
    (iotaInDim S50000 32 0)
/-- An index list as a 1650000 × 1 column. -/
def colK (v : Indices) : IVec S1650000x1 32 :=
  broadcastInDim S1650000x1 ![0] bcast_S1650000_S1650000x1_0 v
/-- Negative indices wrapped around: v + 50000 where v < 0, v elsewhere. -/
def wrapK (v : Indices) : Indices :=
  select (cmpi .slt v (broadcastInDim S1650000 ![] bcast_S_S1650000 (constantI S_ 32 0#32)))
    (addi v (broadcastInDim S1650000 ![] bcast_S_S1650000 (constantI S_ 32 50000#32))) v

/-- The in-degree of every node: ones scatter-added along the destinations into zeros. -/
def degK (ei : Edges) : FVec Ideal S50000 .f32 :=
  Host.scatterAdd (F := Ideal) scatter_S50000_S1650000x1_S1650000_n_0_0_1
    (broadcastInDim S50000 ![] bcast_S_S50000 (constant (F := Ideal) S_ .f32 0x00000000#32))
    (colK (dstK ei))
    (broadcastInDim S1650000 ![] bcast_S_S1650000 (constant (F := Ideal) S_ .f32 0x3F800000#32))
/-- The node factors: 1/√degree where the degree is positive, 0 elsewhere. -/
def dinvK (ei : Edges) : FVec Ideal S50000 .f32 :=
  select (cmpf (F := Ideal) .ogt (degK ei) (broadcastInDim S50000 ![] bcast_S_S50000 (constant (F := Ideal) S_ .f32 0x00000000#32)))
    (Host.rsqrt (F := Ideal) (φ := .f32) (degK ei))
    (broadcastInDim S50000 ![] bcast_S_S50000 (id (constant (F := Ideal) S_ .f32 0x00000000#32)))
/-- The node factors as a 50000 × 1 column. -/
def dinvColK (ei : Edges) : FVec Ideal S50000x1 .f32 :=
  shapeCast S50000x1 (dinvK ei) shapeCasts_S50000_S50000x1

/-- Aggregation of 128-wide rows: gather the rows of `hs` at the wrapped sources, scatter-add them along the raw
    destinations into zeros. -/
def agg128K (hs : FVec Ideal S50000x128 .bf16) (src dst : Indices) : FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (colK dst)
    (extf (F := Ideal) .f32 (Host.gather gather_S50000x128_S1650000x1_S1650000x128_1_0_n_n_0_1_1128 hs (colK (wrapK src))) bitsLt_bf16_f32)
/-- Aggregation of 64-wide rows, likewise. -/
def agg64K (hs : FVec Ideal S50000x64 .bf16) (src dst : Indices) : FVec Ideal S50000x64 .f32 :=
  Host.scatterAdd (F := Ideal) scatter_S50000x64_S1650000x1_S1650000x64_1_0_0_1
    (broadcastInDim S50000x64 ![] bcast_S_S50000x64 (constant (F := Ideal) S_ .f32 0x00000000#32))
    (colK dst)
    (extf (F := Ideal) .f32 (Host.gather gather_S50000x64_S1650000x1_S1650000x64_1_0_n_n_0_1_164 hs (colK (wrapK src))) bitsLt_bf16_f32)

/-- The blocked program's result as a function of its six arguments: two rounds of "scaled product, gather at the
    sources, scatter-add along the destinations", the second after scaling, bias and rectifier, then scaling, bias and
    the row-wise logarithm of the softmax. -/
def kernelOut (x0 : FVec Ideal S50000x256 .f32) (x1 : Edges) (x2 : FVec Ideal S256x128 .f32) (x3 : FVec Ideal S128 .f32)
    (x4 : FVec Ideal S128x64 .f32) (x5 : FVec Ideal S64 .f32) : Cert.Gcn.Mat 50000 64 :=
  Cert.Gcn.logSoftmaxRows (M := 50000) (L := 64)
    (Cert.Gcn.affineRows (M := 50000) (L := 64)
      (agg64K
        (Cert.Gcn.scaledProduct (M := 50000) (K := 128) (L := 64)
          (Cert.Gcn.reluAffine (M := 50000) (L := 128)
            (agg128K (Cert.Gcn.scaledProduct (M := 50000) (K := 256) (L := 128) x0 x2 (dinvColK x1)) (srcK x1) (dstK x1))
            (dinvColK x1) (shapeCast S1x128 x3 shapeCasts_S128_S1x128))
          x4 (dinvColK x1))
        (srcK x1) (dstK x1))
      (dinvColK x1) (shapeCast S1x64 x5 shapeCasts_S64_S1x64))

end Cert.KernelIdeal.Glue

end
-- ==== Proof.KernelGlue.lean ====
/-
  The contents of the buffers each region of the blocked program reads, as the named host functions (HostDefs.lean) of
  the launch memory: the fold of the host stretches and the regions, read one buffer at a time.
-/
import proofs.«133153_j58557584114028_2_alg».proof.Proof.Gen.KernelIdeal.Frame
import proofs.«133153_j58557584114028_2_alg».proof.Proof.Spec
import proofs.«133153_j58557584114028_2_alg».proof.Proof.HostDefs
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- Rewrites a fold of host operations read at one buffer into the operations' functions of the earlier contents. -/
macro "eval_after" : tactic =>
  `(tactic| (simp (disch := decide) only [catK_eq, hostOps0, hostOps0_1, hostOps0_2, hostOps1, hostOps2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']))

/-! ## Before the first region -/

section Reads

attribute [local irreducible] Host.scatterAdd Host.gather Host.rsqrt cmpf cmpi addi select broadcastInDim constant constantI
  catK shapeCast extractStridedSlice iotaInDim extf

theorem W3_src (c : Dev nD) : W3 m ρ c (Proc.devRef .tc main_v5) = srcK (m ((c : Thread nD τ).loc main_arg1)) := by
  show StableHlo.after hostOps0_2 (StableHlo.after hostOps0_1 (StableHlo.after hostOps0 (W0 m ρ c))) (Proc.devRef .tc main_v5) = _
  eval_after
  rfl
theorem W3_dst (c : Dev nD) : W3 m ρ c (Proc.devRef .tc main_v6) = dstK (m ((c : Thread nD τ).loc main_arg1)) := by
  show StableHlo.after hostOps0_2 (StableHlo.after hostOps0_1 (StableHlo.after hostOps0 (W0 m ρ c))) (Proc.devRef .tc main_v6) = _
  eval_after
  rfl
/-- The selection stretch over any contents: the selected array from the condition, the value and the scalar. -/
theorem where_stretch (W : Valuation τ sig (Elt Ideal)) :
    StableHlo.after hostOps0_1 W (Proc.devRef .tc main_v14)
      = select (W (Proc.devRef .tc main_v12) : IVec S50000 1) (W (Proc.devRef .tc main_v13) : FVec Ideal S50000 .f32)
          (broadcastInDim S50000 ![] bcast_S_S50000 (id (W (Proc.devRef .tc main_cst_2) : FVec Ideal S_ .f32))) := by
  eval_after
  rfl
/-- The recast to a column over any contents. -/
theorem column_stretch (W : Valuation τ sig (Elt Ideal)) :
    StableHlo.after hostOps0_2 W (Proc.devRef .tc main_v15)
      = shapeCast S50000x1 (W (Proc.devRef .tc main_v14) : FVec Ideal S50000 .f32) shapeCasts_S50000_S50000x1 := by
  eval_after
  rfl
theorem W1_positive (c : Dev nD) :
    W1 m ρ c (Proc.devRef .tc main_v12)
      = cmpf (F := Ideal) .ogt (degK (m ((c : Thread nD τ).loc main_arg1)))
          (broadcastInDim S50000 ![] bcast_S_S50000 (constant (F := Ideal) S_ .f32 0x00000000#32)) := by
  show StableHlo.after hostOps0 (W0 m ρ c) (Proc.devRef .tc main_v12) = _
  eval_after
  rfl
theorem W1_rsqrt (c : Dev nD) :
    W1 m ρ c (Proc.devRef .tc main_v13) = Host.rsqrt (F := Ideal) (φ := .f32) (degK (m ((c : Thread nD τ).loc main_arg1))) := by
  show StableHlo.after hostOps0 (W0 m ρ c) (Proc.devRef .tc main_v13) = _
  eval_after
  rfl
theorem W1_zero (c : Dev nD) : W1 m ρ c (Proc.devRef .tc main_cst_2) = constant (F := Ideal) S_ .f32 0x00000000#32 := by
  show StableHlo.after hostOps0 (W0 m ρ c) (Proc.devRef .tc main_cst_2) = _
  eval_after
theorem W3_dinvCol (c : Dev nD) : W3 m ρ c (Proc.devRef .tc main_v15) = dinvColK (m ((c : Thread nD τ).loc main_arg1)) := by
  show StableHlo.after hostOps0_2 (StableHlo.after hostOps0_1 (W1 m ρ c)) (Proc.devRef .tc main_v15) = _
  rw [column_stretch, where_stretch, W1_positive, W1_rsqrt, W1_zero]
  rfl

/-! ## Through the first region, and between the first and the second -/

theorem V4_out (c : Dev nD) : V4 m ρ c main_v16 = (dat0 (V3 m ρ) c).arrAt 3 cfg0.N := by
  show W4 m ρ c (Proc.devRef .tc (Pipeline.arrRef spec0 3)) = _
  exact W4_arr m ρ c 3
theorem V4_dinvCol (c : Dev nD) : V4 m ρ c main_v15 = V3 m ρ c main_v15 := by
  show W4 m ρ c (Proc.devRef .tc (Pipeline.arrRef spec0 2)) = _
  exact (W4_arr m ρ c 2).trans (((dat0 (V3 m ρ) c).arrAt_in 2 rfl _).trans (A_eq0 (V3 m ρ) c 2))
theorem V4_src (c : Dev nD) : V4 m ρ c main_v5 = V3 m ρ c main_v5 := W4_of_ne m ρ c main_v5 (by decide)
theorem V4_dst (c : Dev nD) : V4 m ρ c main_v6 = V3 m ρ c main_v6 := W4_of_ne m ρ c main_v6 (by decide)
theorem V4_arg3 (c : Dev nD) : V4 m ρ c main_arg3 = V3 m ρ c main_arg3 := W4_of_ne m ρ c main_arg3 (by decide)
theorem V4_arg4 (c : Dev nD) : V4 m ρ c main_arg4 = V3 m ρ c main_arg4 := W4_of_ne m ρ c main_arg4 (by decide)
theorem V4_arg5 (c : Dev nD) : V4 m ρ c main_arg5 = V3 m ρ c main_arg5 := W4_of_ne m ρ c main_arg5 (by decide)

theorem V5_agg (c : Dev nD) :
    V5 m ρ c main_v27 = agg128K (V4 m ρ c main_v16) (V4 m ρ c main_v5) (V4 m ρ c main_v6) := by
  show StableHlo.after hostOps1 (W4 m ρ c) (Proc.devRef .tc main_v27) = _
  eval_after
  rfl
theorem V5_bias (c : Dev nD) : V5 m ρ c main_v28 = shapeCast S1x128 (V4 m ρ c main_arg3) shapeCasts_S128_S1x128 := by
  show StableHlo.after hostOps1 (W4 m ρ c) (Proc.devRef .tc main_v28) = _
  eval_after
  rfl
theorem V5_dinvCol (c : Dev nD) : V5 m ρ c main_v15 = V4 m ρ c main_v15 := by
  show StableHlo.after hostOps1 (W4 m ρ c) (Proc.devRef .tc main_v15) = _
  eval_after
theorem V5_src (c : Dev nD) : V5 m ρ c main_v5 = V4 m ρ c main_v5 := by
  show StableHlo.after hostOps1 (W4 m ρ c) (Proc.devRef .tc main_v5) = _
  eval_after
theorem V5_dst (c : Dev nD) : V5 m ρ c main_v6 = V4 m ρ c main_v6 := by
  show StableHlo.after hostOps1 (W4 m ρ c) (Proc.devRef .tc main_v6) = _
  eval_after
theorem V5_arg4 (c : Dev nD) : V5 m ρ c main_arg4 = V4 m ρ c main_arg4 := by
  show StableHlo.after hostOps1 (W4 m ρ c) (Proc.devRef .tc main_arg4) = _
  eval_after
theorem V5_arg5 (c : Dev nD) : V5 m ρ c main_arg5 = V4 m ρ c main_arg5 := by
  show StableHlo.after hostOps1 (W4 m ρ c) (Proc.devRef .tc main_arg5) = _
  eval_after

/-! ## Through the second region, and between the second and the third -/

theorem V6_out (c : Dev nD) : V6 m ρ c main_v29 = (dat1 (V5 m ρ) c).arrAt 4 cfg1.N := by
  show W6 m ρ c (Proc.devRef .tc (Pipeline.arrRef spec1 4)) = _
  exact W6_arr m ρ c 4
theorem V6_dinvCol (c : Dev nD) : V6 m ρ c main_v15 = V5 m ρ c main_v15 := by
  show W6 m ρ c (Proc.devRef .tc (Pipeline.arrRef spec1 1)) = _
  exact (W6_arr m ρ c 1).trans (((dat1 (V5 m ρ) c).arrAt_in 1 rfl _).trans (A_eq1 (V5 m ρ) c 1))
theorem V6_src (c : Dev nD) : V6 m ρ c main_v5 = V5 m ρ c main_v5 := W6_of_ne m ρ c main_v5 (by decide)
theorem V6_dst (c : Dev nD) : V6 m ρ c main_v6 = V5 m ρ c main_v6 := W6_of_ne m ρ c main_v6 (by decide)
theorem V6_arg5 (c : Dev nD) : V6 m ρ c main_arg5 = V5 m ρ c main_arg5 := W6_of_ne m ρ c main_arg5 (by decide)

theorem V7_agg (c : Dev nD) :
    V7 m ρ c main_v40 = agg64K (V6 m ρ c main_v29) (V6 m ρ c main_v5) (V6 m ρ c main_v6) := by
  show StableHlo.after hostOps2 (W6 m ρ c) (Proc.devRef .tc main_v40) = _
  eval_after
  rfl
theorem V7_bias (c : Dev nD) : V7 m ρ c main_v41 = shapeCast S1x64 (V6 m ρ c main_arg5) shapeCasts_S64_S1x64 := by
  show StableHlo.after hostOps2 (W6 m ρ c) (Proc.devRef .tc main_v41) = _
  eval_after
  rfl
theorem V7_dinvCol (c : Dev nD) : V7 m ρ c main_v15 = V6 m ρ c main_v15 := by
  show StableHlo.after hostOps2 (W6 m ρ c) (Proc.devRef .tc main_v15) = _
  eval_after

theorem V8_out (c : Dev nD) : W8 m ρ c (Proc.devRef .tc main_v42) = (dat2 (V7 m ρ) c).arrAt 3 cfg2.N := by
  show W8 m ρ c (Proc.devRef .tc (Pipeline.arrRef spec2 3)) = _
  exact W8_arr m ρ c 3

/-! ## The arguments as the first region finds them -/

theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  eval_after
theorem V3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  eval_after
theorem V3_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  eval_after
theorem V3_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  eval_after
theorem V3_arg5 (c : Dev nD) : V3 m ρ c main_arg5 = m ((c : Thread nD τ).loc main_arg5) := by
  show StableHlo.after hostOps0_2 (StableHlo.after hostOps0_1 (StableHlo.after hostOps0 (W0 m ρ c))) (Proc.devRef .tc main_arg5) = _
  eval_after

end Reads

/-! ## The program's result as one expression -/

/-- The result buffer after the run holds `kernelOut` of the launch contents of the arguments, given what each region
    leaves in its output array (the three region theorems). -/
theorem kernel_value
    (h0 : ∀ (V : (c : Dev nD) → (b : Ref sig .tc) → Buf (Elt Ideal) ((c : Thread nD τ).loc b)) (c : Dev nD),
      (dat0 (F := Ideal) V c).arrAt 3 cfg0.N
        = Cert.Gcn.scaledProduct (M := 50000) (K := 256) (L := 128) (V c main_arg0) (V c main_arg2) (V c main_v15))
    (h1 : ∀ (V : (c : Dev nD) → (b : Ref sig .tc) → Buf (Elt Ideal) ((c : Thread nD τ).loc b)) (c : Dev nD),
      (dat1 (F := Ideal) V c).arrAt 4 cfg1.N
        = Cert.Gcn.scaledProduct (M := 50000) (K := 128) (L := 64)
            (Cert.Gcn.reluAffine (M := 50000) (L := 128) (V c main_v27) (V c main_v15) (V c main_v28)) (V c main_arg4) (V c main_v15))
    (h2 : ∀ (V : (c : Dev nD) → (b : Ref sig .tc) → Buf (Elt Ideal) ((c : Thread nD τ).loc b)) (c : Dev nD),
      (dat2 (F := Ideal) V c).arrAt 3 cfg2.N
        = Cert.Gcn.logSoftmaxRows (M := 50000) (L := 64)
            (Cert.Gcn.affineRows (M := 50000) (L := 64) (V c main_v40) (V c main_v15) (V c main_v41)))
    (c : Dev nD) :
    W8 m ρ c (Proc.devRef .tc main_v42)
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have hd3 : V3 m ρ c main_v15 = dinvColK (m ((c : Thread nD τ).loc main_arg1)) := W3_dinvCol m ρ c
  have hs3 : V3 m ρ c main_v5 = srcK (m ((c : Thread nD τ).loc main_arg1)) := W3_src m ρ c
  have ht3 : V3 m ρ c main_v6 = dstK (m ((c : Thread nD τ).loc main_arg1)) := W3_dst m ρ c
  rw [V8_out, h2, V7_agg, V7_bias, V7_dinvCol, V6_out, h1, V6_dinvCol, V6_src, V6_dst, V6_arg5,
    V5_agg, V5_bias, V5_dinvCol, V5_src, V5_dst, V5_arg4, V5_arg5,
    V4_out, h0, V4_dinvCol, V4_src, V4_dst, V4_arg3, V4_arg4, V4_arg5,
    V3_arg0, V3_arg2, V3_arg3, V3_arg4, V3_arg5, hd3, hs3, ht3]
  rfl

end Cert.KernelIdeal.Glue

end
-- ==== Proof.LibColumnLayout.lean ====
/-
  General reading lemmas for two-dimensional arrays, at an index given by its two coordinates.

  * a matrix product into the zero accumulator, at the extended reals, read at (a, b), is the sum over the
    contracted coordinate of the products of the entries (`matmul_plain_zero_apply`);
  * a column (an m × 1 array) broadcast along the second axis reads, at (a, b), the column's entry a
    (`broadcastTo_column_apply`);
  * the first row cut out of an m × n array reads, at (0, b), the array at (0, b)
    (`extractStridedSlice_firstRow_apply`);
  * a one-row array of N entries recast as m rows of n reads, at (q, l), the entry at position q · n + l
    (`shapeCast_row_tiles_apply`).
-/
import Idealize.ShloMosaic.Lib.StackMember
import Idealize.ShloMosaic.Lib.Pipeline.Value

noncomputable section

open scoped BigOperators

namespace Cert.LibColumnLayout

open Idealize.ShloMosaic Idealize.ShloMosaic.ValueIdx

/-- The plain product of an m × k by a k × n matrix accumulated into the zero array, read at (a, b), is
    Σ_c A(a, c) · B(c, b): the accumulator contributes 0 + ·, and the contraction index is one coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A column broadcast along the second axis: entry (a, b) of the result is entry (a, 0) of the column. When
    m = 1 the first axis is a unit axis too and its coordinate is 0 = a. -/
theorem broadcastTo_column_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun c => ?_
  match c with
  | ⟨0, _⟩ =>
    show a.val = if m = 1 then 0 else a.val
    split
    · have := a.isLt; omega
    · rfl
  | ⟨1, _⟩ => rfl

/-- The first row of an m × n array, cut out as a 1 × n array: entry (0, b) is the array's entry (0, b). -/
theorem extractStridedSlice_firstRow_apply {α : Type} {m n : Nat} (x : (⟨2, ![m, n]⟩ : Shape).Idx → α)
    (h : (⟨2, ![m, n]⟩ : Shape).Slices ![0, 0] ⟨2, ![1, n]⟩) (hm : 0 < m) (b : Fin n) :
    extractStridedSlice ⟨2, ![1, n]⟩ ![0, 0] x h (ix2 (0 : Fin 1) b) = x (ix2 (⟨0, hm⟩ : Fin m) b) := by
  refine extractStridedSlice_apply ![0, 0] x h (ix2 (0 : Fin 1) b) (ix2 (⟨0, hm⟩ : Fin m) b) fun c => ?_
  match c with
  | ⟨0, _⟩ => rfl
  | ⟨1, _⟩ => show b.val = 0 + b.val; omega

/-- A one-row array of N entries recast as m rows of n entries keeps the row-major order: entry (q, l) of the
    result is the entry at position p = q · n + l of the row. -/
theorem shapeCast_row_tiles_apply {α : Type} {m n N : Nat} (x : (⟨2, ![1, N]⟩ : Shape).Idx → α)
    (h : (⟨2, ![1, N]⟩ : Shape).ShapeCasts ⟨2, ![m, n]⟩) (q : Fin m) (l : Fin n) (p : Fin N)
    (hp : p.val = q.val * n + l.val) :
    shapeCast ⟨2, ![m, n]⟩ x h (ix2 q l) = x (ix2 (0 : Fin 1) p) := by
  refine shapeCast_apply x h (ix2 q l) (ix2 (0 : Fin 1) p) ?_
  rw [Shape.rowMajor_val_two, Shape.rowMajor_val_two]
  show 0 * N + p.val = q.val * n + l.val
  omega

end Cert.LibColumnLayout

end
-- ==== Proof.Region0.lean ====
/-
  Region 0 of the blocked program, as one function of whole arrays.

  The region walks the node-feature array in ten row blocks of 5000 rows. At each block it multiplies the block by the
  whole first weight matrix and scales every row of the product by that row's entry of the column of node factors.
  Entry (p, q) of the block written at point t is therefore (Σ_k x(5000 t + p, k) · w(k, q)) · d(5000 t + p), which is
  entry (5000 t + p, q) of one function of the three whole arrays; the ten blocks tile the output array, so after the
  region the output array is that function.
-/
import proofs.«133153_j58557584114028_2_alg».proof.Proof.Gen.KernelIdeal.Frame
import proofs.«133153_j58557584114028_2_alg».proof.Proof.Spec
import proofs.«133153_j58557584114028_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Region0

open Cert.KernelIdeal Cert.KernelIdeal.Gen Idealize.ShloMosaic Idealize.ShloMosaic.TcCoe Idealize.SL.Sem
open Idealize.ShloMosaic.ValueIdx Idealize.ShloMosaic.Pipeline

/-- The zero offsets of a whole-buffer access, as a constant function. -/
theorem zeroOffsets : (![0, 0] : Fin 2 → Nat) = fun _ => 0 := funext fun a => by fin_cases a <;> rfl

/-- The printed contraction record is the plain product of a 5000 × 256 by a 256 × 128 matrix. -/
theorem dot_plain : dot_S5000x256_S256x128_S5000x128_1_0_0_1_n_n = DotDims.plain 5000 256 128 := rfl

/-- Entry (p, q) of what the body stores: the p-th row of the feature block against the q-th column of the weights,
    scaled by the p-th entry of the factor block. The changes of float format are the identity on extended reals. -/
theorem payload_apply (x0 : FVec Ideal S5000x256 .f32) (x1 : FVec Ideal S256x128 .f32) (x2 : FVec Ideal S5000x1 .f32)
    (p : Fin 5000) (q : Fin 128) :
    k0_pay1 (F := Ideal) x0 x1 x2 (ix2 p q)
      = (∑ k : Fin 256, x0 (ix2 p k) * x1 (ix2 k q)) * x2 (ix2 p (0 : Fin 1)) := by
  unfold k0_pay1
  rw [truncf_apply, mulf_apply, shapeCast_self, dot_plain,
    Cert.LibColumnLayout.matmul_plain_zero_apply, Cert.LibColumnLayout.broadcastTo_column_apply]
  rfl

/-- The block indices over the grid, decided once: at point t the feature, factor and output windows sit at row block t
    (and at the only column block), the weight window at its only block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b))

/-- Row y₀ of the feature block at point t is row 5000 t + y₀ of the feature array; the block has all the columns. -/
theorem features_block_apply (c : Dev nD) (t : Fin cfg0.N) (y : S5000x256.Idx) (i : S50000x256.Idx)
    (h0 : (i 0).val = t.val * 5000 + (y 0).val) (h1 : (i 1).val = (y 1).val) :
    (iblk0 V c 0 t : Vec Ideal S5000x256 .f32) y = (V c main_arg0 : S50000x256.Idx → EReal) i := by
  obtain ⟨e0, e1, -⟩ := index_facts t
  unfold iblk0
  rw [View.read_apply]
  show V c main_arg0 _ = V c main_arg0 _
  refine congrArg _ ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The weight window has one block, the whole weight matrix, at every point. -/
theorem weights_block_apply (c : Dev nD) (t : Fin cfg0.N) (y : S256x128.Idx) :
    (iblk0 V c 1 t : Vec Ideal S256x128 .f32) y = (V c main_arg2 : S256x128.Idx → EReal) y := by
  obtain ⟨-, -, e2, e3, -⟩ := index_facts t
  unfold iblk0
  rw [View.read_apply]
  show V c main_arg2 _ = V c main_arg2 _
  refine congrArg _ ?_
  funext a
  apply Fin.ext
  match a with
  | ⟨0, _⟩ => show win0_1.index t (0 : Fin 2) * 256 + 1 * (y 0).val = (y 0).val; rw [e2]; omega
  | ⟨1, _⟩ => show win0_1.index t (1 : Fin 2) * 128 + 1 * (y 1).val = (y 1).val; rw [e3]; omega

/-- Entry y₀ of the factor block at point t is entry 5000 t + y₀ of the column of node factors. -/
theorem factors_block_apply (c : Dev nD) (t : Fin cfg0.N) (y : S5000x1.Idx) (i : S50000x1.Idx)
    (h0 : (i 0).val = t.val * 5000 + (y 0).val) (h1 : (i 1).val = (y 1).val) :
    (iblk0 V c 2 t : Vec Ideal S5000x1 .f32) y = (V c main_v15 : S50000x1.Idx → EReal) i := by
  obtain ⟨-, -, -, -, e4, e5, -⟩ := index_facts t
  unfold iblk0
  rw [View.read_apply]
  show V c main_v15 _ = V c main_v15 _
  refine congrArg _ ?_
  funext a
  apply Fin.ext
  match a with
  | ⟨0, _⟩ => show win0_2.index t (0 : Fin 2) * 5000 + 1 * (y 0).val = (i 0).val; rw [e4, h0]; omega
  | ⟨1, _⟩ => show win0_2.index t (1 : Fin 2) * 1 + 1 * (y 1).val = (i 1).val; rw [e5, h1]; omega

/-- Entry j of what the body computes from the three blocks at point t is entry i of the scaled product of the whole
    arrays, whenever i is row 5000 t + j₀ and column j₁. -/
theorem block_entry (c : Dev nD) (t : Fin cfg0.N) (j : S5000x128.Idx) (i : S50000x128.Idx)
    (h0 : (i 0).val = t.val * 5000 + (j 0).val) (h1 : (i 1).val = (j 1).val) :
    k0_pay1 (F := Ideal) (iblk0 V c 0 t) (iblk0 V c 1 t) (iblk0 V c 2 t) j
      = Cert.Gcn.scaledProduct (M := 50000) (K := 256) (L := 128) (V c main_arg0) (V c main_arg2) (V c main_v15) i := by
  obtain ⟨p, q, rfl⟩ : ∃ (p : Fin 5000) (q : Fin 128), j = ix2 p q := ⟨j 0, j 1, eq_ix2 j⟩
  obtain ⟨n, l, rfl⟩ : ∃ (n : Fin 50000) (l : Fin 128), i = ix2 n l := ⟨i 0, i 1, eq_ix2 i⟩
  obtain rfl : l = q := Fin.ext h1
  rw [Cert.Gcn.scaledProduct_apply]
  refine (payload_apply (iblk0 V c 0 t) (iblk0 V c 1 t) (iblk0 V c 2 t) p l).trans ?_
  unfold Cert.Gcn.scaledProductAt
  refine congrArg₂ (· * ·) (Finset.sum_congr rfl fun k _ => ?_) ?_
  · rw [features_block_apply V c t (ix2 p k) (ix2 n k) h0 rfl, weights_block_apply V c t (ix2 k l)]
  · exact factors_block_apply V c t (ix2 p (0 : Fin 1)) (ix2 n (0 : Fin 1)) h0 rfl

/-- What point t writes back is block t of the scaled product of the whole arrays. -/
theorem flushed_eq (c : Dev nD) (t : Fin cfg0.N) :
    (dat0 (F := Ideal) V c).flushed 3 t
      = ((cfg0.win 3).blk t).view.read (Elt Ideal)
          (Cert.Gcn.scaledProduct (M := 50000) (K := 256) (L := 128) (V c main_arg0) (V c main_arg2) (V c main_v15)) := by
  show (cfg0.win 3).cut (grid0.coords t) ((dat0 V c).after 3 t) = _
  rw [after0_3]
  unfold out0_3
  rw [View.canon_unit_zero zeroOffsets]
  simp only [View.ld_unit_zero (S := S5000x256) zeroOffsets, View.ld_unit_zero (S := S256x128) zeroOffsets,
    View.ld_unit_zero (S := S5000x1) zeroOffsets]
  obtain ⟨-, -, -, -, -, -, e6, e7⟩ := index_facts t
  funext j
  refine block_entry V c t j (((cfg0.win 3).blk t).view.emb j) ?_ ?_
  · show win0_3.index t (0 : Fin 2) * 5000 + 1 * (j 0).val = t.val * 5000 + (j 0).val; rw [e6]; omega
  · show win0_3.index t (1 : Fin 2) * 128 + 1 * (j 1).val = (j 1).val; rw [e7]; omega

end Blocks

/-- An index of the output array is in point t's block iff each coordinate is in the block's range on its axis. -/
theorem mem_out_block (t : Fin cfg0.N) (i : S50000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v16).slice (win0_3.rect t)).set ↔ _
  rw [View.set_slice_whole, Rect.mem_set_unit]
  exact Iff.rfl

/-- The ten row blocks tile the output array: row r is in the block of point r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, e6, e7⟩ := index_facts t
  refine ⟨t, flush0_3 t, ?_⟩
  rw [mem_out_block]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- After the first region every block of the output array has been written, and the array as a whole is the product of
    the node features with the first weight matrix, each row scaled by its node's factor. -/
theorem region0_final (V : (c : Dev nD) → (b : Ref sig .tc) → Buf (Elt Ideal) ((c : Thread nD τ).loc b)) (c : Dev nD) :
    (dat0 (F := Ideal) V c).arrAt 3 cfg0.N
      = Cert.Gcn.scaledProduct (M := 50000) (K := 256) (L := 128) (V c main_arg0) (V c main_arg2) (V c main_v15) := by
  exact (dat0 (F := Ideal) V c).arrAt_eq_of_cover 3 _ (fun t _ => flushed_eq V c t) covered

end Cert.Gcn.Region0

end
-- ==== Proof.Region1.lean ====
/-
  Region 1 of the blocked program, as one function of whole arrays.

  The region runs over ten blocks of 5000 rows. At each block it reads the block of aggregated first-layer sums
  (5000 × 128), the block of node factors (a 5000 × 1 column), the whole bias row (1 × 128) and the whole second
  weight matrix (128 × 64), and stores a 5000 × 64 block: every row of the sums is scaled by its node's factor,
  shifted by the bias and rectified, the result is multiplied by the weights, and every row of the product is
  scaled by its node's factor again. Below: the stored block's entry (p, q) as a formula of the loaded blocks'
  entries; then, since row p of block t is row t · 5000 + p of each row-blocked array, what point t writes back is
  block t of one whole-array function; the ten blocks tile the output, so the output array ends holding that function.
-/
import proofs.«133153_j58557584114028_2_alg».proof.Proof.Gen.KernelIdeal.Frame
import proofs.«133153_j58557584114028_2_alg».proof.Proof.Spec
import proofs.«133153_j58557584114028_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Region1

open Cert.KernelIdeal Cert.KernelIdeal.Gen Idealize.ShloMosaic Idealize.ShloMosaic.TcCoe Idealize.SL.Sem
open Idealize.ShloMosaic.ValueIdx Idealize.ShloMosaic.Pipeline

/-! ## The body's value at an entry of its block -/

/-- The plain product of a 5000 × 128 block by the 128 × 64 weights, accumulated into the zero array, read at (p, q):
    the sum over the contracted coordinate of the products of the entries. -/
theorem product_apply (A : FVec Ideal S5000x128 .bf16) (B : FVec Ideal S128x64 .bf16) (p : Fin 5000) (q : Fin 64) :
    matmul dot_S5000x128_S128x64_S5000x64_1_0_0_1_n_n none A B (constant (F := Ideal) S5000x64 .f32 0x00000000#32) (ix2 p q)
      = ∑ k : Fin 128, A (ix2 p k) * B (ix2 k q) :=
  Cert.LibColumnLayout.matmul_plain_zero_apply none A B p q

/-- Entry (p, q) of what the body stores, from the blocks it loads: the block of sums x0 has its row p scaled by the
    column's entry p, shifted by the bias row and rectified; that row times column q of the weights; the product
    scaled by the column's entry p again. Changes of float format are the identity on the extended reals, and the
    constant zero word is the extended real 0. -/
theorem payload_apply (x0 : Vec Ideal S5000x128 .f32) (x1 : Vec Ideal S5000x1 .f32) (x2 : Vec Ideal S1x128 .f32)
    (x3 : Vec Ideal S128x64 .f32) (p : Fin 5000) (q : Fin 64) :
    k1_pay1 (F := Ideal) x0 x1 x2 x3 x1 (ix2 p q)
      = (∑ k : Fin 128, max (x0 (ix2 p k) * x1 (ix2 p (0 : Fin 1)) + x2 (ix2 (0 : Fin 1) k)) 0 * x3 (ix2 k q))
          * x1 (ix2 p (0 : Fin 1)) := by
  unfold k1_pay1
  simp only [shapeCast_self]
  rw [truncf_apply, mulf_apply, product_apply, Cert.LibColumnLayout.broadcastTo_column_apply]
  refine congrArg (· * x1 (ix2 p (0 : Fin 1))) (Finset.sum_congr rfl fun k _ => ?_)
  rw [truncf_apply, truncf_apply, maximumf_apply, addf_apply, mulf_apply, broadcast_apply,
    Cert.LibColumnLayout.broadcastTo_column_apply, broadcastTo_1b_ab_apply]
  show max _ (Ideal.ofBits .f32 0x00000000#32) * _ = _
  rw [Ideal.ofBits_zero_f32]

/-- The same entry against whole arrays: when row p of the loaded blocks is row n of the arrays a (the sums) and d
    (the node factors), and the bias and weight blocks are the arrays b and w, entry (p, q) of what the body stores
    is entry (n, q) of the rectified, shifted and scaled a times w, with row n scaled by d(n). -/
theorem block_entry (a : Mat 50000 128) (d : Mat 50000 1) (b : Mat 1 128) (w : Mat 128 64)
    (x0 : Vec Ideal S5000x128 .f32) (x1 : Vec Ideal S5000x1 .f32) (x2 : Vec Ideal S1x128 .f32)
    (x3 : Vec Ideal S128x64 .f32) (p : Fin 5000) (q : Fin 64) (n : Fin 50000)
    (h0 : ∀ k : Fin 128, x0 (ix2 p k) = a (ix2 n k))
    (h1 : x1 (ix2 p (0 : Fin 1)) = d (ix2 n (0 : Fin 1)))
    (h2 : ∀ k : Fin 128, x2 (ix2 (0 : Fin 1) k) = b (ix2 (0 : Fin 1) k))
    (h3 : ∀ k : Fin 128, x3 (ix2 k q) = w (ix2 k q)) :
    k1_pay1 (F := Ideal) x0 x1 x2 x3 x1 (ix2 p q)
      = scaledProduct (M := 50000) (K := 128) (L := 64) (reluAffine (M := 50000) (L := 128) a d b) w d (ix2 n q) := by
  rw [payload_apply, scaledProduct_apply]
  unfold scaledProductAt
  rw [h1]
  refine congrArg (· * d (ix2 n (0 : Fin 1))) (Finset.sum_congr rfl fun k _ => ?_)
  rw [reluAffine_apply, h0, h2, h3]
  rfl

/-! ## From the blocks to the array -/

theorem hz : (![0, 0] : Fin 2 → Nat) = fun _ => 0 := funext fun a => by fin_cases a <;> rfl

/-- The printed index maps over the grid: at point t the windows over the sums, the node factors and the output are
    at block (t, 0); the bias row and the weights have one block, (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section EntryContents

variable (V : (c : Dev nD) → (b : Ref sig .tc) → Buf (Elt Ideal) ((c : Thread nD τ).loc b)) (c : Dev nD)

/-- What point t writes back is block t of the whole-array function: row p of block t is row t · 5000 + p of the
    arrays, on every row-blocked window; the bias row and the weights are read whole. -/
theorem flushed_eq (t : Fin cfg1.N) :
    (dat1 (F := Ideal) V c).flushed 4 t
      = ((cfg1.win 4).blk t).view.read (Elt Ideal)
          (scaledProduct (M := 50000) (K := 128) (L := 64)
            (reluAffine (M := 50000) (L := 128) (V c main_v27) (V c main_v15) (V c main_v28)) (V c main_arg4) (V c main_v15)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x64) hz]
  obtain ⟨e00, e01, e10, e11, e20, e21, e30, e31, e40, e41⟩ := idx_facts t
  have ht : t.val < 10 := by have h := t.isLt; have hN : cfg1.N = 10 := N_1; omega
  refine funext fun (j : S5000x64.Idx) => ?_
  obtain ⟨p, q, rfl⟩ : ∃ (p : Fin 5000) (q : Fin 64), j = ix2 p q := ⟨j 0, j 1, eq_ix2 j⟩
  have hn : t.val * 5000 + p.val < 50000 := by have := p.isLt; omega
  show k1_pay1 (F := Ideal) (iblk1 V c 0 t) (iblk1 V c 1 t) (iblk1 V c 2 t) (iblk1 V c 3 t) (iblk1 V c 1 t) (ix2 p q)
    = scaledProduct (M := 50000) (K := 128) (L := 64)
        (reluAffine (M := 50000) (L := 128) (V c main_v27) (V c main_v15) (V c main_v28)) (V c main_arg4) (V c main_v15)
        (((cfg1.win 4).blk t).view.emb (ix2 p q))
  refine (block_entry (V c main_v27) (V c main_v15) (V c main_v28) (V c main_arg4)
    (iblk1 V c 0 t) (iblk1 V c 1 t) (iblk1 V c 2 t) (iblk1 V c 3 t) p q ⟨t.val * 5000 + p.val, hn⟩ ?_ ?_ ?_ ?_).trans ?_
  · intro k
    show V c main_v27 (((cfg1.win 0).blk t).view.emb (ix2 p k)) = V c main_v27 (ix2 ⟨t.val * 5000 + p.val, hn⟩ k)
    refine congrArg (V c main_v27) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v15 (((cfg1.win 1).blk t).view.emb (ix2 p (0 : Fin 1))) = V c main_v15 (ix2 ⟨t.val * 5000 + p.val, hn⟩ (0 : Fin 1))
    refine congrArg (V c main_v15) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · intro k
    show V c main_v28 (((cfg1.win 2).blk t).view.emb (ix2 (0 : Fin 1) k)) = V c main_v28 (ix2 (0 : Fin 1) k)
    refine congrArg (V c main_v28) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · intro k
    show V c main_arg4 (((cfg1.win 3).blk t).view.emb (ix2 k q)) = V c main_arg4 (ix2 k q)
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 64 + 1 * q.val = q.val; omega
  · refine congrArg _ (funext fun a => Fin.ext ?_)
    match a with
    | ⟨0, _⟩ => show t.val * 5000 + p.val = win1_4.index t (0 : Fin 2) * 5000 + 1 * p.val; omega
    | ⟨1, _⟩ => show q.val = win1_4.index t (1 : Fin 2) * 64 + 1 * q.val; omega

end EntryContents

/-- An index of the output array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- Every row r of the output array is written back by the point r / 5000: the ten blocks of 5000 rows tile it. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, -, -, -, -, e40, e41⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    have e : win1_4.index ⟨(i 0).val / 5000, hlt⟩ (0 : Fin 2) = (i 0).val / 5000 := e40
    omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    omega

/-! ## The region's output array -/

/-- After the second region the output array as a whole is: the aggregated first-layer sums scaled by the node factors,
    shifted by the first bias and rectified; that times the second weight matrix; each row scaled by its node's factor. -/
theorem region1_final (V : (c : Dev nD) → (b : Ref sig .tc) → Buf (Elt Ideal) ((c : Thread nD τ).loc b)) (c : Dev nD) :
    (dat1 (F := Ideal) V c).arrAt 4 cfg1.N
      = Cert.Gcn.scaledProduct (M := 50000) (K := 128) (L := 64)
          (Cert.Gcn.reluAffine (M := 50000) (L := 128) (V c main_v27) (V c main_v15) (V c main_v28)) (V c main_arg4) (V c main_v15) :=
  (dat1 (F := Ideal) V c).arrAt_eq_of_cover 4 _ (fun t _ => flushed_eq V c t) cover

end Cert.Gcn.Region1

end
-- ==== Proof.Region2.lean ====
/-
  Region 2 of the blocked program, as one function of whole arrays.

  Each of the ten grid points takes 5000 rows of the aggregated sums, the same rows of the column of node factors and
  the one bias row, forms z = rows · factor + bias, and writes back, for every row, z minus the row's maximum minus the
  logarithm of the row's sum of exp(z − maximum). A row's maximum and sum read only that row, so the block written at
  point t is block t of the row-wise logarithm of the softmax of the whole scaled and shifted array, and the ten blocks
  tile the array.
-/
import proofs.«133153_j58557584114028_2_alg».proof.Proof.Gen.KernelIdeal.Frame
import proofs.«133153_j58557584114028_2_alg».proof.Proof.Spec
import proofs.«133153_j58557584114028_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Region2

open Cert.KernelIdeal Cert.KernelIdeal.Gen Idealize.ShloMosaic Idealize.ShloMosaic.TcCoe Idealize.SL.Sem
open Idealize.ShloMosaic.ValueIdx Idealize.ShloMosaic.Pipeline

/-! ## Layout operations of the body, read at an index given by its coordinates -/

/-- A vector of a entries recast as a column (an a × 1 array) reads, at (i, u), the vector's entry i. -/
theorem shapeCast_vector_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The maximum over the second axis of an a × b array, from −∞, read at row p: the fold of max over the row. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction (F := Ideal) .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  show (Finset.univ : Finset (Fin b)).fold max (Ideal.ofBits .f32 acc) (fun k => src (h.lift (ix1 p) k)) = _
  refine Finset.fold_congr fun k _ => congrArg src ?_
  funext d
  match d with
  | ⟨0, _⟩ => exact Fin.ext rfl
  | ⟨1, _⟩ => exact Fin.ext rfl

/-- The sum over the second axis of an a × b array, from 0, read at row p: the sum of the row. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction (F := Ideal) .add [1] ⟨1, ![a]⟩ src acc h hφ hacc (ix1 p)
      = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d
  match d with
  | ⟨0, _⟩ => exact Fin.ext rfl
  | ⟨1, _⟩ => exact Fin.ext rfl

/-! ## The body's arithmetic at an entry -/

/-- The scaled and shifted array the body forms first: the block times the column broadcast along the rows'
    entries, plus the one row broadcast over the rows. -/
theorem affine_block_eq (x0 : Vec Ideal S5000x64 .f32) (x2 : Vec Ideal S5000x1 .f32) (x6 : Vec Ideal S1x64 .f32)
    (h0 : S5000x64.ShapeCasts S5000x64) (h2 : S5000x1.ShapeCasts S5000x1) (h6 : S1x64.ShapeCasts S1x64)
    (hb2 : S5000x1.Broadcasts S5000x64) (hb6 : S1x64.Broadcasts S5000x64) :
    (addf (mulf (shapeCast S5000x64 x0 h0) (broadcastTo S5000x64 (shapeCast S5000x1 x2 h2) hb2))
        (broadcastTo S5000x64 (shapeCast S1x64 x6 h6) hb6) : FVec Ideal S5000x64 .f32)
      = Cert.Gcn.affineRows (M := 5000) (L := 64) x0 x2 x6 := by
  funext i
  obtain ⟨p, q, rfl⟩ : ∃ (p : Fin 5000) (q : Fin 64), i = ix2 p q := ⟨i 0, i 1, eq_ix2 i⟩
  rw [shapeCast_self, shapeCast_self, shapeCast_self, addf_apply, mulf_apply,
    Cert.LibColumnLayout.broadcastTo_column_apply, broadcastTo_1b_ab_apply]
  rfl

/-- The rest of the body over the scaled and shifted array z: subtract each row's maximum, exponentiate, sum each
    row, take the logarithm and subtract it. At (p, q) that is the logarithm of the row-wise softmax of z. -/
theorem logSoftmax_block_apply (z : FVec Ideal S5000x64 .f32) (h : S5000x64.Reduces [1] S5000) (hφ : FKind.Formats .f32)
    (hm : (0xFF800000#32 : BitVec 32) = FKind.maximumf.neutral .f32 hφ)
    (hs : (0x00000000#32 : BitVec 32) = FKind.add.neutral .f32 hφ)
    (hc : S5000.ShapeCasts S5000x1) (hb : S5000x1.Broadcasts S5000x64) (p : Fin 5000) (q : Fin 64) :
    subf (subf z (broadcastTo S5000x64 (shapeCast S5000x1 (multiReduction (F := Ideal) .maximumf [1] S5000 z 0xFF800000#32 h hφ hm) hc) hb))
        (broadcastTo S5000x64 (log (shapeCast S5000x1 (multiReduction (F := Ideal) .add [1] S5000
          (exp (subf z (broadcastTo S5000x64 (shapeCast S5000x1 (multiReduction (F := Ideal) .maximumf [1] S5000 z 0xFF800000#32 h hφ hm) hc) hb)))
          0x00000000#32 h hφ hs) hc)) hb) (ix2 p q)
      = Cert.Gcn.logSoftmaxAt (M := 5000) (L := 64) z p q := by
  have hmax : ∀ (a : Fin 5000) (b : Fin 64),
      broadcastTo S5000x64 (shapeCast S5000x1 (multiReduction (F := Ideal) .maximumf [1] S5000 z 0xFF800000#32 h hφ hm) hc) hb (ix2 a b)
        = Cert.Gcn.rowMax (M := 5000) (L := 64) z a := by
    intro a b
    refine (Cert.LibColumnLayout.broadcastTo_column_apply _ hb a b).trans ?_
    refine (shapeCast_vector_column_apply _ hc a 0).trans ?_
    exact laneMax_apply z _ h hφ hm a
  show _ = (z (ix2 p q) - Cert.Gcn.rowMax z p) - Ideal.log (∑ k : Fin 64, Ideal.exp (z (ix2 p k) - Cert.Gcn.rowMax z p))
  rw [subf_apply, subf_apply, hmax p q]
  refine congrArg (fun t => (z (ix2 p q) - Cert.Gcn.rowMax z p) - t) ?_
  refine (Cert.LibColumnLayout.broadcastTo_column_apply _ hb p q).trans ?_
  refine congrArg Ideal.log ?_
  refine (shapeCast_vector_column_apply _ hc p 0).trans ?_
  refine (laneSum_apply _ _ h hφ hs p).trans ?_
  refine Finset.sum_congr rfl fun k _ => ?_
  refine congrArg Ideal.exp ?_
  rw [subf_apply, hmax p k]

/-- The body's payload at entry (p, q) of the block: the logarithm of the row-wise softmax of the block's rows scaled by
    the column's entries and shifted by the one row. -/
theorem payload_apply (x0 : Vec Ideal S5000x64 .f32) (x2 : Vec Ideal S5000x1 .f32) (x6 : Vec Ideal S1x64 .f32)
    (p : Fin 5000) (q : Fin 64) :
    k2_pay1 (F := Ideal) x0 x2 x6 (ix2 p q)
      = Cert.Gcn.logSoftmaxAt (M := 5000) (L := 64) (Cert.Gcn.affineRows (M := 5000) (L := 64) x0 x2 x6) p q := by
  unfold k2_pay1
  rw [← affine_block_eq x0 x2 x6 shapeCasts_S5000x64_S5000x64 shapeCasts_S5000x1_S5000x1 shapeCasts_S1x64_S1x64
    broadcasts_S5000x1_S5000x64 broadcasts_S1x64_S5000x64]
  exact logSoftmax_block_apply _ reduces_S5000x64_S5000 (.inl rfl) rfl rfl shapeCasts_S5000_S5000x1
    broadcasts_S5000x1_S5000x64 p q

/-! ## From the blocks to the array -/

theorem offsets_zero : (![0, 0] : Fin 2 → Nat) = fun _ => 0 := funext fun a => by fin_cases a <;> rfl

/-- Over one row the logarithm of the softmax reads only that row: if row p of z is row r of Z, entry (p, q) of the
    one is entry (r, q) of the other. -/
theorem logSoftmaxAt_congr_row {M M' L : Nat} (z : Cert.Gcn.Mat M L) (Z : Cert.Gcn.Mat M' L) (p : Fin M) (r : Fin M')
    (h : ∀ k : Fin L, z (ix2 p k) = Z (ix2 r k)) (q : Fin L) :
    Cert.Gcn.logSoftmaxAt z p q = Cert.Gcn.logSoftmaxAt Z r q := by
  have hm : Cert.Gcn.rowMax z p = Cert.Gcn.rowMax Z r := by
    unfold Cert.Gcn.rowMax
    exact Finset.fold_congr fun k _ => h k
  unfold Cert.Gcn.logSoftmaxAt
  rw [hm, h q]
  refine congrArg (fun t => (Z (ix2 r q) - Cert.Gcn.rowMax Z r) - Ideal.log t) ?_
  exact Finset.sum_congr rfl fun k _ => by rw [h k]

/-- An entry of the scaled and shifted array reads one entry of each operand: equal entries give equal results. -/
theorem affineRowsAt_congr {M M' L : Nat} (a : Cert.Gcn.Mat M L) (d : Cert.Gcn.Mat M 1) (b : Cert.Gcn.Mat 1 L)
    (A : Cert.Gcn.Mat M' L) (D : Cert.Gcn.Mat M' 1) (B : Cert.Gcn.Mat 1 L) (p : Fin M) (r : Fin M') (k : Fin L)
    (ha : a (ix2 p k) = A (ix2 r k)) (hd : d (ix2 p (0 : Fin 1)) = D (ix2 r (0 : Fin 1)))
    (hb : b (ix2 (0 : Fin 1) k) = B (ix2 (0 : Fin 1) k)) :
    Cert.Gcn.affineRowsAt a d b p k = Cert.Gcn.affineRowsAt A D B r k := by
  unfold Cert.Gcn.affineRowsAt
  rw [ha, hd, hb]

/-- The printed index maps over the grid: at point t the blocks of the three row-blocked windows are block t along the
    rows and block 0 along the entries; the one-row window has one block. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

/-- What point t writes back is block t of the row-wise logarithm of the softmax of the whole scaled and shifted array:
    row p of block t is row 5000 t + p of the array, and that row's maximum and sum read only that row. -/
theorem flushed_eq (t : Fin cfg2.N) :
    (dat2 (F := Ideal) V c).flushed 3 t = ((cfg2.win 3).blk t).view.read (Elt Ideal)
      (Cert.Gcn.logSoftmaxRows (M := 50000) (L := 64)
        (Cert.Gcn.affineRows (M := 50000) (L := 64) (V c main_v40) (V c main_v15) (V c main_v41))) := by
  show (cfg2.win 3).cut (grid2.coords t) ((dat2 V c).after 3 t) = _
  rw [after2_3]
  unfold out2_3
  rw [View.canon_unit_zero offsets_zero]
  simp only [View.ld_unit_zero (S := S5000x64) offsets_zero, View.ld_unit_zero (S := S5000x1) offsets_zero,
    View.ld_unit_zero (S := S1x64) offsets_zero]
  obtain ⟨e00, e01, e10, e11, e20, e21, e30, e31⟩ := index_facts t
  have hN : cfg2.N = 10 := N_2
  funext j
  obtain ⟨p, q, rfl⟩ : ∃ (p : Fin 5000) (q : Fin 64), j = ix2 p q := ⟨j 0, j 1, eq_ix2 (n0 := 5000) (n1 := 64) j⟩
  have hr : t.val * 5000 + p.val < 50000 := by have := t.isLt; have := p.isLt; omega
  refine (payload_apply (iblk2 V c 0 t) (iblk2 V c 1 t) (iblk2 V c 2 t) p q).trans ?_
  have hemb : ((cfg2.win 3).blk t).view.emb (ix2 p q) = ix2 (⟨t.val * 5000 + p.val, hr⟩ : Fin 50000) q := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 64 + 1 * q.val = q.val; rw [e31]; omega
  have h0 : ∀ k : Fin 64, ((cfg2.win 0).blk t).view.emb (ix2 p k) = ix2 (⟨t.val * 5000 + p.val, hr⟩ : Fin 50000) k := by
    intro k; funext a; apply Fin.ext
    match a with
    | ⟨0, _⟩ => show win2_0.index t (0 : Fin 2) * 5000 + 1 * p.val = t.val * 5000 + p.val; rw [e00]; omega
    | ⟨1, _⟩ => show win2_0.index t (1 : Fin 2) * 64 + 1 * k.val = k.val; rw [e01]; omega
  have h1 : ((cfg2.win 1).blk t).view.emb (ix2 p (0 : Fin 1)) = ix2 (⟨t.val * 5000 + p.val, hr⟩ : Fin 50000) (0 : Fin 1) := by
    funext a; apply Fin.ext
    match a with
    | ⟨0, _⟩ => show win2_1.index t (0 : Fin 2) * 5000 + 1 * p.val = t.val * 5000 + p.val; rw [e10]; omega
    | ⟨1, _⟩ => show win2_1.index t (1 : Fin 2) * 1 + 1 * 0 = 0; rw [e11]
  have h2 : ∀ k : Fin 64, ((cfg2.win 2).blk t).view.emb (ix2 (0 : Fin 1) k) = ix2 (0 : Fin 1) k := by
    intro k; funext a; apply Fin.ext
    match a with
    | ⟨0, _⟩ => show win2_2.index t (0 : Fin 2) * 1 + 1 * 0 = 0; rw [e20]
    | ⟨1, _⟩ => show win2_2.index t (1 : Fin 2) * 64 + 1 * k.val = k.val; rw [e21]; omega
  show _ = Cert.Gcn.logSoftmaxRows (M := 50000) (L := 64) _ (((cfg2.win 3).blk t).view.emb (ix2 p q))
  rw [hemb, Cert.Gcn.logSoftmaxRows_apply]
  refine logSoftmaxAt_congr_row _ _ p ⟨t.val * 5000 + p.val, hr⟩ (fun k => ?_) q
  rw [Cert.Gcn.affineRows_apply, Cert.Gcn.affineRows_apply]
  refine affineRowsAt_congr (iblk2 V c 0 t) (iblk2 V c 1 t) (iblk2 V c 2 t) (V c main_v40) (V c main_v15) (V c main_v41)
    p ⟨t.val * 5000 + p.val, hr⟩ k ?_ ?_ ?_
  · show V c main_v40 (((cfg2.win 0).blk t).view.emb (ix2 p k)) = _
    rw [h0 k]
  · show V c main_v15 (((cfg2.win 1).blk t).view.emb (ix2 p (0 : Fin 1))) = _
    rw [h1]
  · show V c main_v41 (((cfg2.win 2).blk t).view.emb (ix2 (0 : Fin 1) k)) = _
    rw [h2 k]

/-- An index of the array is in point t's block iff each coordinate is in the block's range on its axis. -/
theorem mem_block (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v42).slice (win2_3.rect t)).set ↔ _
  rw [View.set_slice_whole, Rect.mem_set_unit]
  exact Iff.rfl

/-- Every index of the array is in some point's block: row r lies in block r / 5000. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, e30, e31⟩ := index_facts ⟨(i 0).val / 5000, ht⟩
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [e31]; omega

/-- After the third region the output array as a whole is the row-wise logarithm of the softmax of the aggregated
    second-layer sums scaled by the node factors and shifted by the second bias. -/
theorem region2_final (V : (c : Dev nD) → (b : Ref sig .tc) → Buf (Elt Ideal) ((c : Thread nD τ).loc b)) (c : Dev nD) :
    (dat2 (F := Ideal) V c).arrAt 3 cfg2.N
      = Cert.Gcn.logSoftmaxRows (M := 50000) (L := 64)
          (Cert.Gcn.affineRows (M := 50000) (L := 64) (V c main_v40) (V c main_v15) (V c main_v41)) := by
  exact (dat2 (F := Ideal) V c).arrAt_eq_of_cover 3 _ (fun t _ => flushed_eq V c t) covered

end Cert.Gcn.Region2

end
-- ==== Proof.LibRowGatherScatter.lean ====
/-
  Reading a gather of rows and a scatter of rows at an index.

  An operand with N rows is read, or accumulated into, through an integer array of E start indices held as an
  E × 1 column (one scalar index per edge):

  * gathering from a vector of N entries gives, at edge e, the entry at the edge's index read as a signed integer and
    clamped into [0, N − 1] (`gather_vec_apply`);
  * gathering rows from an N × L array gives, at (e, l), the entry (r, l) where r is that same clamped index
    (`gather_row_apply`): the row a two-dimensional gather reads is the entry a one-dimensional gather reads;
  * an update (e, l) of a row scatter lands on cell i only if the edge's index, read signed and NOT clamped, is
    exactly i's row (`scatter_row_lands`): an index outside [0, N) lands nowhere.
-/
import Idealize.ShloMosaic.Lib.ValueIdx
import Idealize.ShloMosaic.PureOps.Ideal

noncomputable section

namespace Cert.LibRowGatherScatter

open Idealize.ShloMosaic Idealize.ShloMosaic.ValueIdx

/-- The position in the E × 1 column of start indices that belongs to edge `e`. -/
abbrev colIdx {E : Nat} (e : Fin E) : (⟨2, ![E, 1]⟩ : Shape).Idx := ix2 e (0 : Fin 1)

/-- A start index read as a signed integer and clamped into [0, N − 1]: the row a gather reads. -/
def clampRow {w : Nat} (N : Nat) (hN : 0 < N) (v : BitVec w) : Fin N := ⟨min v.toInt.toNat (N - 1), by omega⟩

/-! ## Gathering from a vector -/

/-- The dimension numbers of `x[idx]` for a vector `x` of N entries and E scalar indices held as an E × 1 column. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered vector is the operand at edge e's clamped index. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (colIdx e)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Gathering rows -/

/-- The dimension numbers of `X[idx]` for an N × L array and E scalar row indices held as an E × 1 column. -/
abbrev rowGatherDims (N E L : Nat)
    (wf : GatherDims.WF ⟨2, ![N, L]⟩ ⟨2, ![E, 1]⟩ ⟨2, ![E, L]⟩ [1] [0] [] [0] [] 1 ![1, L]) :
    GatherDims ⟨2, ![N, L]⟩ ⟨2, ![E, 1]⟩ ⟨2, ![E, L]⟩ where
  offsetDims := [1]
  collapsedSliceDims := [0]
  operandBatchingDims := []
  startIndicesBatchingDims := []
  startIndexMap := [0]
  indexVectorDim := 1
  sliceSizes := ![1, L]
  wf := wf

/-- Entry (e, l) of the gathered rows is the operand at (edge e's clamped index, l). -/
theorem gather_row_apply {α : Type} {N E L w : Nat} (hN : 0 < N)
    (wf : GatherDims.WF ⟨2, ![N, L]⟩ ⟨2, ![E, 1]⟩ ⟨2, ![E, L]⟩ [1] [0] [] [0] [] 1 ![1, L])
    (x : (⟨2, ![N, L]⟩ : Shape).Idx → α) (idx : IVec ⟨2, ![E, 1]⟩ w) (e : Fin E) (l : Fin L) :
    Host.gather (rowGatherDims N E L wf) x idx (ix2 e l) = x (ix2 (clampRow N hN (idx (colIdx e))) l) := by
  unfold Host.gather
  congr 1
  funext a
  refine Fin.ext ?_
  match a with
  | ⟨0, _⟩ =>
    show (rowGatherDims N E L wf).start (ix2 e l) idx 0 + (rowGatherDims N E L wf).batchCoord (ix2 e l) 0
      + (rowGatherDims N E L wf).offCoord (ix2 e l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E L wf).startIndexMap from List.mem_singleton.mpr rfl)]
    have hsi : (rowGatherDims N E L wf).siIdx (ix2 e l) ⟨List.idxOf (0 : Fin 2) (rowGatherDims N E L wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowGatherDims N E L wf).start (ix2 e l) idx 1 + (rowGatherDims N E L wf).batchCoord (ix2 e l) 1
      + (rowGatherDims N E L wf).offCoord (ix2 e l) 1 = l.val
    rw [GatherDims.batchCoord_eq_zero _ _ _ List.not_mem_nil]
    have hs : (rowGatherDims N E L wf).start (ix2 e l) idx 1 = 0 := by
      unfold GatherDims.start
      rw [dif_neg (show (1 : Fin 2) ∉ (rowGatherDims N E L wf).startIndexMap from
        by show (1 : Fin 2) ∉ ([0] : List (Fin 2)); decide)]
    rw [hs]
    simp only [Nat.add_zero, Nat.zero_add]
    rfl

/-! ## Scattering rows -/

/-- The dimension numbers of `Z.at[idx].add(U)` for an N × L array, E scalar row indices held as an E × 1 column and
    E × L updates. -/
abbrev rowScatterDims (N E L : Nat)
    (wf : ScatterDims.WF ⟨2, ![N, L]⟩ ⟨2, ![E, 1]⟩ ⟨2, ![E, L]⟩ [1] [0] [0] 1) :
    ScatterDims ⟨2, ![N, L]⟩ ⟨2, ![E, 1]⟩ ⟨2, ![E, L]⟩ where
  updateWindowDims := [1]
  insertedWindowDims := [0]
  scatterDimsToOperandDims := [0]
  indexVectorDim := 1
  wf := wf

/-- If update (e, l) lands on cell i, then edge e's index, read as a signed integer, is i's row. -/
theorem scatter_row_lands {N E L w : Nat} (wf : ScatterDims.WF ⟨2, ![N, L]⟩ ⟨2, ![E, 1]⟩ ⟨2, ![E, L]⟩ [1] [0] [0] 1)
    (idx : IVec ⟨2, ![E, 1]⟩ w) (e : Fin E) (l : Fin L) (i : (⟨2, ![N, L]⟩ : Shape).Idx)
    (h : (rowScatterDims N E L wf).resultIdx? (ix2 e l) idx = some i) :
    (idx (colIdx e)).toInt = ((i 0).val : Int) := by
  unfold ScatterDims.resultIdx? at h
  split at h
  · rename_i hall
    have hi := Option.some.inj h
    have h0 := hall 0
    have hs : (rowScatterDims N E L wf).start (ix2 e l) idx 0 = (idx (colIdx e)).toInt := by
      unfold ScatterDims.start
      rw [dif_pos (show (0 : Fin 2) ∈ (rowScatterDims N E L wf).scatterDimsToOperandDims from List.mem_singleton.mpr rfl)]
      have hsi : (rowScatterDims N E L wf).siIdx (ix2 e l) ⟨List.idxOf (0 : Fin 2) (rowScatterDims N E L wf).scatterDimsToOperandDims,
          List.idxOf_lt_length_iff.2 (List.mem_singleton.mpr rfl)⟩ = colIdx e := by
        funext b; refine Fin.ext ?_
        match b with
        | ⟨0, _⟩ => rfl
        | ⟨1, _⟩ => rfl
      rw [hsi]
    have hw : (rowScatterDims N E L wf).window (ix2 e l) 0 = 0 := by
      unfold ScatterDims.window
      rw [dif_neg (show (0 : Fin 2) ∉ (rowScatterDims N E L wf).sKept from by
        simp [ScatterDims.sKept, Shape.kept])]
    have hv := congrArg (fun f : (⟨2, ![N, L]⟩ : Shape).Idx => (f 0).val) hi
    simp only at hv
    rw [hs, hw] at h0
    rw [← hv]
    show _ = (((rowScatterDims N E L wf).start (ix2 e l) idx 0 + ((rowScatterDims N E L wf).window (ix2 e l) 0 : Int)).toNat : Int)
    rw [hs, hw]
    omega
  · exact absurd h (by simp)

end Cert.LibRowGatherScatter

end
-- ==== Proof.Algebra.lean ====
/-
  The one algebraic law of this certificate, on the extended reals.

  On the extended reals multiplication does not distribute over addition in general (∞ − ∞ is involved), but it does
  when every term is a real number. The aggregation of a graph convolution sums, over the edges e that arrive at a
  node n, the source row h(s(e), ·) weighted by the product of the two ends' factors δ(s(e)) · δ(n). Since δ(n) does not
  depend on the edge, the weighted sum is δ(n) times the sum of the rows already scaled at the source:
      Σ_e h(s(e), l) · (δ(s(e)) · δ(n))  =  (Σ_e h(s(e), l) · δ(s(e))) · δ(n),
  which is distributivity of the real δ(n) over a finite sum of reals. The scatter's own bookkeeping supplies the
  rest: an edge contributes to cell (n, l) only if its raw destination index is n, and then the destination factor
  the reference gathers for that edge is δ(n).
-/
import proofs.«133153_j58557584114028_2_alg».proof.Proof.Spec
import proofs.«133153_j58557584114028_2_alg».proof.Proof.LibRowGatherScatter

noncomputable section

open scoped BigOperators

namespace Cert.Gcn

open Idealize.ShloMosaic Idealize.ShloMosaic.ValueIdx Cert.LibRowGatherScatter

/-- An extended real that is a real number (neither infinity). -/
def IsReal (a : EReal) : Prop := ∃ r : ℝ, a = (r : EReal)

theorem IsReal.coe (r : ℝ) : IsReal (r : EReal) := ⟨r, rfl⟩
theorem IsReal.zero : IsReal 0 := ⟨0, EReal.coe_zero.symm⟩
theorem IsReal.one : IsReal 1 := ⟨1, EReal.coe_one.symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.max {a b : EReal} (ha : IsReal a) (hb : IsReal b) : IsReal (max a b) := by
  rcases le_total a b with h | h
  · rw [max_eq_right h]; exact hb
  · rw [max_eq_left h]; exact ha

/-- A finite sum of real numbers is a real number. -/
theorem IsReal.sum {ι : Type} (s : Finset ι) (f : ι → EReal) (h : ∀ i ∈ s, IsReal (f i)) : IsReal (∑ i ∈ s, f i) := by
  classical
  revert h
  refine Finset.induction_on s ?_ ?_
  · intro _; rw [Finset.sum_empty]; exact IsReal.zero
  · intro a t hat ih h
    rw [Finset.sum_insert hat]
    exact (h a (Finset.mem_insert_self a t)).add (ih fun i hi => h i (Finset.mem_insert_of_mem hi))

/-- A real factor distributes over a finite sum of real numbers. -/
theorem sum_mul_of_isReal {ι : Type} (s : Finset ι) (f : ι → EReal) (d : EReal) (hf : ∀ i ∈ s, IsReal (f i))
    (hd : IsReal d) : (∑ i ∈ s, f i) * d = ∑ i ∈ s, f i * d := by
  classical
  obtain ⟨r, rfl⟩ := hd
  revert hf
  refine Finset.induction_on s ?_ ?_
  · intro _; rw [Finset.sum_empty, Finset.sum_empty, zero_mul]
  · intro a t hat ih hf
    rw [Finset.sum_insert hat, Finset.sum_insert hat, ← ih (fun i hi => hf i (Finset.mem_insert_of_mem hi))]
    obtain ⟨x, hx⟩ := hf a (Finset.mem_insert_self a t)
    obtain ⟨y, hy⟩ := IsReal.sum t f (fun i hi => hf i (Finset.mem_insert_of_mem hi))
    rw [hx, hy, ← EReal.coe_add, ← EReal.coe_mul, ← EReal.coe_mul, ← EReal.coe_mul, ← EReal.coe_add, add_mul]

/-- THE LAYER LAW. `hs` is the array `h` with every row already scaled by its node's factor (`d2`, a column holding the
    factors `dv`). Scatter-adding the gathered rows of `hs` along the edges and scaling the sum at node n by the factor of
    n gives what the reference computes: the scatter-add of the gathered rows of `h`, each weighted by the product of
    the factors gathered at the edge's two ends. `hwrap` says that for an edge whose raw destination index is a node n,
    the destination index the reference gathers with (the raw one with negatives wrapped, then clamped) is n too. -/
theorem layer_law {N E L w : Nat} (hN : 0 < N)
    (wfS : ScatterDims.WF ⟨2, ![N, L]⟩ ⟨2, ![E, 1]⟩ ⟨2, ![E, L]⟩ [1] [0] [0] 1)
    (wfG : GatherDims.WF ⟨2, ![N, L]⟩ ⟨2, ![E, 1]⟩ ⟨2, ![E, L]⟩ [1] [0] [] [0] [] 1 ![1, L])
    (wfV : GatherDims.WF ⟨1, ![N]⟩ ⟨2, ![E, 1]⟩ ⟨1, ![E]⟩ [] [0] [] [0] [] 1 ![1])
    (h hs Z : Mat N L) (dv : (⟨1, ![N]⟩ : Shape).Idx → EReal) (d2 : Mat N 1)
    (src dstRaw dstW : IVec ⟨2, ![E, 1]⟩ w)
    (hZ : ∀ i, Z i = 0) (hd2 : ∀ n : Fin N, d2 (ix2 n (0 : Fin 1)) = dv (ix1 n))
    (hhs : ∀ (n : Fin N) (l : Fin L), hs (ix2 n l) = h (ix2 n l) * d2 (ix2 n (0 : Fin 1)))
    (hh : ∀ i, IsReal (h i)) (hdv : ∀ n, IsReal (dv n))
    (hwrap : ∀ (e : Fin E) (n : Fin N), (dstRaw (colIdx e)).toInt = (n.val : Int) → clampRow N hN (dstW (colIdx e)) = n)
    (n : Fin N) (l : Fin L) :
    Ideal.hostScatterAdd (rowScatterDims N E L wfS) Z dstRaw (Host.gather (rowGatherDims N E L wfG) hs src) (ix2 n l)
        * d2 (ix2 n (0 : Fin 1))
      = Ideal.hostScatterAdd (rowScatterDims N E L wfS) Z dstRaw
          (fun j => Host.gather (rowGatherDims N E L wfG) h src j
            * (Host.gather (vecGatherDims N E wfV) dv src (ix1 (row j))
                * Host.gather (vecGatherDims N E wfV) dv dstW (ix1 (row j)))) (ix2 n l) := by
  unfold Ideal.hostScatterAdd
  rw [hZ, zero_add, zero_add]
  have hreal : ∀ j ∈ Finset.univ.filter (fun j => (rowScatterDims N E L wfS).resultIdx? j dstRaw = some (ix2 n l)),
      IsReal (Host.gather (rowGatherDims N E L wfG) hs src j) := by
    intro j _
    obtain ⟨e, k, rfl⟩ : ∃ (e : Fin E) (k : Fin L), j = ix2 e k := ⟨row j, col j, (ix2_row_col j).symm⟩
    rw [gather_row_apply hN wfG hs src e k, hhs, hd2]
    exact (hh _).mul (hdv _)
  rw [sum_mul_of_isReal _ _ _ hreal (by rw [hd2]; exact hdv _)]
  refine Finset.sum_congr rfl fun j hj => ?_
  have hland := (Finset.mem_filter.mp hj).2
  obtain ⟨e, k, rfl⟩ : ∃ (e : Fin E) (k : Fin L), j = ix2 e k := ⟨row j, col j, (ix2_row_col j).symm⟩
  have hdst : (dstRaw (colIdx e)).toInt = (n.val : Int) := scatter_row_lands wfS dstRaw e k (ix2 n l) hland
  have hrow : row (ix2 e k : (⟨2, ![E, L]⟩ : Shape).Idx) = e := rfl
  beta_reduce
  rw [gather_row_apply hN wfG hs src e k, gather_row_apply hN wfG h src e k, hrow,
    gather_vec_apply hN wfV dv src e, gather_vec_apply hN wfV dv dstW e, hwrap e n hdst, hhs, hd2, hd2, mul_assoc]

end Cert.Gcn

end
-- ==== Proof.FinitePre.lean ====
/-
  Under the precondition every entry of every floating-point argument is a real number.

  The precondition's function is a conjunction of five tests, one per floating-point argument: "every entry has
  absolute value below +∞", each computed as the conjunction over all entries of the entrywise comparison
  |x| < +∞. On the extended reals |x| is max x (−x), which is +∞ at both infinities and the real |r| at a real r,
  so an entry passes the test exactly when it is a real number.
-/
import proofs.«133153_j58557584114028_2_alg».proof.Pre_finite_inputs
import proofs.«133153_j58557584114028_2_alg».proof.Proof.Algebra
import Idealize.ShloMosaic.Lib.ValueIdx
import Idealize.ShloMosaic.Lib.ReduceAll
import Idealize.ShloMosaic.PureOps.Ideal.Laws

noncomputable section

namespace Cert.Gcn.FinitePre

open Idealize.ShloMosaic Idealize.ShloMosaic.ValueIdx Cert.Pre_finite_inputs

/-- The shape of a single value has one index. -/
instance : Subsingleton S_.Idx := ⟨fun a b => funext fun d => d.elim0⟩

/-- An extended real whose absolute value max x (−x) compares below the value of the pattern of +∞ is a real number:
    at either infinity the absolute value is +∞ itself. -/
theorem isReal_of_abs_lt (x : EReal)
    (h : Ideal.cmp .olt (max x (-x)) (Ideal.ofBits .f32 0x7F800000#32) = 1#1) : Cert.Gcn.IsReal x := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- One argument's test: if the conjunction over all entries of |x| < +∞ is true, every entry of x is a real number. -/
theorem all_real_of_test {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
          (cmpf .olt (Host.absf x) (broadcastInDim s ![] bc (constant (F := Ideal) S_ .f32 0x7F800000#32)))
          (constantI S_ 1 1#1) hr hu ix0 = 1#1) (i : s.Idx) : Cert.Gcn.IsReal (x i) :=
  isReal_of_abs_lt (x i) (Host.reduce_andi_all _ _ hr hu ix0 e i)

/-- The precondition's function is the conjunction, over the five floating-point arguments, of "every entry has absolute
    value below +∞"; an extended real whose absolute value is below +∞ is a real number. -/
theorem real_of_pre [Cert.Pre_finite_inputs.Facts]
    (x0 : FVec Ideal S50000x256 .f32) (x1 : IVec S2x1600000 32) (x2 : FVec Ideal S256x128 .f32)
    (x3 : FVec Ideal S128 .f32) (x4 : FVec Ideal S128x64 .f32) (x5 : FVec Ideal S64 .f32)
    (h : Cert.Pre_finite_inputs.fn (F := Ideal) x0 x1 x2 x3 x4 x5 = fun _ => 1#1) :
    (∀ i, Cert.Gcn.IsReal (x0 i)) ∧ (∀ i, Cert.Gcn.IsReal (x2 i)) ∧ (∀ i, Cert.Gcn.IsReal (x3 i))
      ∧ (∀ i, Cert.Gcn.IsReal (x4 i)) ∧ (∀ i, Cert.Gcn.IsReal (x5 i)) := by
  have h0 := congrFun h ix0
  dsimp only [fn, fn_part1] at h0
  obtain ⟨h1234, e5⟩ := IntOp.andi_eq_one.1 h0
  obtain ⟨h123, e4⟩ := IntOp.andi_eq_one.1 h1234
  obtain ⟨h12, e3⟩ := IntOp.andi_eq_one.1 h123
  obtain ⟨e0, e2⟩ := IntOp.andi_eq_one.1 h12
  exact ⟨all_real_of_test x0 _ _ _ e0, all_real_of_test x2 _ _ _ e2, all_real_of_test x3 _ _ _ e3,
    all_real_of_test x4 _ _ _ e4, all_real_of_test x5 _ _ _ e5⟩

end Cert.Gcn.FinitePre

end
-- ==== Proof.RefStages.lean ====
/-
  The reference program's fold of host operations, evaluated: the result buffer holds the last stage of the
  operation-by-operation reading of the program.

  The 98 operations are cut into five consecutive stretches: the source and destination index lists (the edge
  list's two rows, each followed by the self-loops); the per-edge normalisation (in-degrees by a scatter-add of ones,
  the node factors 1/√degree, gathered at both ends of every edge and multiplied); the first layer (product with
  the first weights, gather at the sources, scaling per edge, scatter-add along the destinations, bias, rectifier);
  the second layer (the same with the second weights and bias); the row-wise logarithm of the softmax. For each
  stretch, over ANY contents of the buffers at its entry: the buffers it hands on hold the reading's stage whenever
  the buffers it reads hold theirs, and the buffers it does not write keep their contents. An operation inlined
  from a called function acts on its buffers as an ordinary operation does (the transport of a value along the
  buffer's type is the identity), and the join of two index lists is named as one function of the two, so every
  comparison is between terms of the same shape and no array operation is ever opened.
-/
import proofs.«133153_j58557584114028_2_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem
open Idealize.ShloMosaic.StableHlo

/-! ## The fold over a list in two pieces -/

/-- Running two lists of operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Two index lists joined end to end, as one function of the two. -/
def cat2 {α : Type} (a : S1600000.Idx → α) (b : S50000.Idx → α) : S1650000.Idx → α :=
  concatenate S1650000 0 [⟨S1600000, a⟩, ⟨S50000, b⟩] concatenates_S1600000_S50000_S1650000_d0

/-! ## The five stretches of the program -/

section Lists

variable {F : FTy → Type} [FloatOps F]

/-- Operations 1–7: the source and the destination index lists. -/
def opsIdx : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 (cat2 : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 (cat2 : (⟨S1600000, .i32⟩ : BufTy).Contents (Elt F) → (⟨S50000, .i32⟩ : BufTy).Contents (Elt F) → (⟨S1650000, .i32⟩ : BufTy).Contents (Elt F)) ]

/-- Operations 8–40: the in-degrees, the node factors, and their product over every edge. -/
def opsNorm : List (HloOp τ sig (Elt F)) :=
  [ nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

/-- Operations 41–63: the first layer, through its rectifier. -/
def opsLayer1 : List (HloOp τ sig (Elt F)) :=
  [ binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    nullary main_call1_cst ((constant S_ .f32 0x00000000#32) : (⟨S_, .f32⟩ : BufTy).Contents (Elt F)),
    unary main_call1_cst main_call1_v0 ((broadcastInDim S50000x128 ![] bcast_S_S50000x128) : (⟨S_, .f32⟩ : BufTy).Contents (Elt F) → (⟨S50000x128, .f32⟩ : BufTy).Contents (Elt F)),
    binary main_v46 main_call1_v0 main_v47 (maximumf : (⟨S50000x128, .f32⟩ : BufTy).Contents (Elt F) → (⟨S50000x128, .f32⟩ : BufTy).Contents (Elt F) → (⟨S50000x128, .f32⟩ : BufTy).Contents (Elt F)) ]

/-- Operations 64–83: the second layer, through its bias. -/
def opsLayer2 : List (HloOp τ sig (Elt F)) :=
  [ binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_9 (constantI S_ 32 0#32),
    unary main_c_9 main_v49 (broadcastInDim S1650000 ![] bcast_S_S1650000 : (⟨S_, .i32⟩ : BufTy).Contents (Elt F) → (⟨S1650000, .i32⟩ : BufTy).Contents (Elt F)),
    binary main_v3 main_v49 main_v50 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v51 (broadcastInDim S1650000 ![] bcast_S_S1650000 : (⟨S_, .i32⟩ : BufTy).Contents (Elt F) → (⟨S1650000, .i32⟩ : BufTy).Contents (Elt F)),
    binary main_v3 main_v51 main_v52 (addi : (⟨S1650000, .i32⟩ : BufTy).Contents (Elt F) → (⟨S1650000, .i32⟩ : BufTy).Contents (Elt F) → (⟨S1650000, .i32⟩ : BufTy).Contents (Elt F)),
    ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v53 main_v54 (broadcastInDim S1650000x1 ![0] bcast_S1650000_S1650000x1_0 : (⟨S1650000, .i32⟩ : BufTy).Contents (Elt F) → (⟨S1650000x1, .i32⟩ : BufTy).Contents (Elt F)),
    binary main_v48 main_v54 main_v55 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v29 main_v56 (broadcastInDim S1650000x1 ![0] bcast_S1650000_S1650000x1_0 : (⟨S1650000, .f32⟩ : BufTy).Contents (Elt F) → (⟨S1650000x1, .f32⟩ : BufTy).Contents (Elt F)),
    unary main_v56 main_v57 (broadcastInDim S1650000x64 ![0, 1] bcast_S1650000x1_S1650000x64_0_1 : (⟨S1650000x1, .f32⟩ : BufTy).Contents (Elt F) → (⟨S1650000x64, .f32⟩ : BufTy).Contents (Elt F)),
    binary main_v55 main_v57 main_v58 (mulf : (⟨S1650000x64, .f32⟩ : BufTy).Contents (Elt F) → (⟨S1650000x64, .f32⟩ : BufTy).Contents (Elt F) → (⟨S1650000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S1650000x1 ![0] bcast_S1650000_S1650000x1_0 : (⟨S1650000, .i32⟩ : BufTy).Contents (Elt F) → (⟨S1650000x1, .i32⟩ : BufTy).Contents (Elt F)),
    ternary main_v59 main_v60 main_v58 main_v61 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)) ]

/-- Operations 84–98: the row-wise logarithm of the softmax. -/
def opsLogSoftmax : List (HloOp τ sig (Elt F)) :=
  [ nullary main_call2_cst ((constant S_ .f32 0xFF800000#32) : (⟨S_, .f32⟩ : BufTy).Contents (Elt F)),
    binary main_v64 main_call2_cst main_call2_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_call2_cst_0 ((constant S_ .f32 0xFF800000#32) : (⟨S_, .f32⟩ : BufTy).Contents (Elt F)),
    unary main_call2_cst_0 main_call2_v1 ((broadcastInDim S50000 ![] bcast_S_S50000) : (⟨S_, .f32⟩ : BufTy).Contents (Elt F) → (⟨S50000, .f32⟩ : BufTy).Contents (Elt F)),
    binary main_call2_v1 main_call2_v0 main_call2_v2 (maximumf : (⟨S50000, .f32⟩ : BufTy).Contents (Elt F) → (⟨S50000, .f32⟩ : BufTy).Contents (Elt F) → (⟨S50000, .f32⟩ : BufTy).Contents (Elt F)),
    unary main_call2_v2 main_call2_v3 ((broadcastInDim S50000x1 ![0] bcast_S50000_S50000x1_0) : (⟨S50000, .f32⟩ : BufTy).Contents (Elt F) → (⟨S50000x1, .f32⟩ : BufTy).Contents (Elt F)),
    unary main_call2_v3 main_call2_v4 ((broadcastInDim S50000x64 ![0, 1] bcast_S50000x1_S50000x64_0_1) : (⟨S50000x1, .f32⟩ : BufTy).Contents (Elt F) → (⟨S50000x64, .f32⟩ : BufTy).Contents (Elt F)),
    binary main_v64 main_call2_v4 main_call2_v5 (subf : (⟨S50000x64, .f32⟩ : BufTy).Contents (Elt F) → (⟨S50000x64, .f32⟩ : BufTy).Contents (Elt F) → (⟨S50000x64, .f32⟩ : BufTy).Contents (Elt F)),
    unary main_call2_v5 main_call2_v6 (Host.exp : (⟨S50000x64, .f32⟩ : BufTy).Contents (Elt F) → (⟨S50000x64, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_call2_v7 main_call2_v8 ((broadcastInDim S50000x1 ![0] bcast_S50000_S50000x1_0) : (⟨S50000, .f32⟩ : BufTy).Contents (Elt F) → (⟨S50000x1, .f32⟩ : BufTy).Contents (Elt F)),
    unary main_call2_v8 main_call2_v9 (Host.log : (⟨S50000x1, .f32⟩ : BufTy).Contents (Elt F) → (⟨S50000x1, .f32⟩ : BufTy).Contents (Elt F)),
    unary main_call2_v9 main_call2_v10 ((broadcastInDim S50000x64 ![0, 1] bcast_S50000x1_S50000x64_0_1) : (⟨S50000x1, .f32⟩ : BufTy).Contents (Elt F) → (⟨S50000x64, .f32⟩ : BufTy).Contents (Elt F)),
    binary main_call2_v5 main_call2_v10 main_v65 (subf : (⟨S50000x64, .f32⟩ : BufTy).Contents (Elt F) → (⟨S50000x64, .f32⟩ : BufTy).Contents (Elt F) → (⟨S50000x64, .f32⟩ : BufTy).Contents (Elt F)) ]

-- the fold of the row maximum is compared through its arguments, never opened
attribute [local irreducible] Host.reduce in
/-- The program's operations are the five stretches in order. -/
theorem ops_split : Cert.ReferenceIdeal.ValueP.ops (F := F)
    = opsIdx ++ (opsNorm ++ (opsLayer1 ++ (opsLayer2 ++ opsLogSoftmax))) := rfl

end Lists

/-- Rewrites a fold of a stretch read at one buffer into the operations' functions of the entry contents. -/
macro "eval_stage" : tactic =>
  `(tactic| (simp (disch := decide) only [opsIdx, opsNorm, opsLayer1, opsLayer2, opsLogSoftmax, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']))

/-! ## Each stretch over arbitrary entry contents -/

/-- The index lists are the edge list's rows followed by the self-loops. -/
theorem idx_stage (W : Valuation τ sig (Elt Ideal)) :
    after (opsIdx (F := Ideal)) W (Proc.devRef .tc main_v3) = ReadP.val_main_v3 (F := Ideal) (W (Proc.devRef .tc main_arg1))
    ∧ after (opsIdx (F := Ideal)) W (Proc.devRef .tc main_v6) = ReadP.val_main_v6 (F := Ideal) (W (Proc.devRef .tc main_arg1)) := by
  refine ⟨?_, ?_⟩ <;> (eval_stage; rfl)

/-- The first stretch writes none of the other arguments. -/
theorem idx_kept (W : Valuation τ sig (Elt Ideal)) :
    after (opsIdx (F := Ideal)) W (Proc.devRef .tc main_arg0) = W (Proc.devRef .tc main_arg0)
    ∧ after (opsIdx (F := Ideal)) W (Proc.devRef .tc main_arg2) = W (Proc.devRef .tc main_arg2)
    ∧ after (opsIdx (F := Ideal)) W (Proc.devRef .tc main_arg3) = W (Proc.devRef .tc main_arg3)
    ∧ after (opsIdx (F := Ideal)) W (Proc.devRef .tc main_arg4) = W (Proc.devRef .tc main_arg4)
    ∧ after (opsIdx (F := Ideal)) W (Proc.devRef .tc main_arg5) = W (Proc.devRef .tc main_arg5) := by
  refine ⟨?_, ?_, ?_, ?_, ?_⟩ <;> eval_stage

set_option maxHeartbeats 1000000 in
/-- The per-edge normalisation, from the two index lists. -/
theorem norm_stage (W : Valuation τ sig (Elt Ideal)) (x1 : (⟨S2x1600000, .i32⟩ : BufTy).Contents (Elt Ideal))
    (h3 : W (Proc.devRef .tc main_v3) = ReadP.val_main_v3 (F := Ideal) x1)
    (h6 : W (Proc.devRef .tc main_v6) = ReadP.val_main_v6 (F := Ideal) x1) :
    after (opsNorm (F := Ideal)) W (Proc.devRef .tc main_v29) = ReadP.val_main_v29 (F := Ideal) x1 := by
  eval_stage
  rw [h3, h6]
  rfl

/-- The second stretch writes neither index list nor any argument. -/
theorem norm_kept (W : Valuation τ sig (Elt Ideal)) :
    after (opsNorm (F := Ideal)) W (Proc.devRef .tc main_v3) = W (Proc.devRef .tc main_v3)
    ∧ after (opsNorm (F := Ideal)) W (Proc.devRef .tc main_v6) = W (Proc.devRef .tc main_v6)
    ∧ after (opsNorm (F := Ideal)) W (Proc.devRef .tc main_arg0) = W (Proc.devRef .tc main_arg0)
    ∧ after (opsNorm (F := Ideal)) W (Proc.devRef .tc main_arg2) = W (Proc.devRef .tc main_arg2)
    ∧ after (opsNorm (F := Ideal)) W (Proc.devRef .tc main_arg3) = W (Proc.devRef .tc main_arg3)
    ∧ after (opsNorm (F := Ideal)) W (Proc.devRef .tc main_arg4) = W (Proc.devRef .tc main_arg4)
    ∧ after (opsNorm (F := Ideal)) W (Proc.devRef .tc main_arg5) = W (Proc.devRef .tc main_arg5) := by
  refine ⟨?_, ?_, ?_, ?_, ?_, ?_, ?_⟩ <;> eval_stage

set_option maxHeartbeats 1000000 in
/-- The first layer, from the index lists, the per-edge factors, the features, the first weights and the first bias. -/
theorem layer1_stage (W : Valuation τ sig (Elt Ideal)) (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))
    (h3 : W (Proc.devRef .tc main_v3) = ReadP.val_main_v3 (F := Ideal) x1)
    (h6 : W (Proc.devRef .tc main_v6) = ReadP.val_main_v6 (F := Ideal) x1)
    (h29 : W (Proc.devRef .tc main_v29) = ReadP.val_main_v29 (F := Ideal) x1)
    (h0 : W (Proc.devRef .tc main_arg0) = x0) (h2 : W (Proc.devRef .tc main_arg2) = x2) (h3' : W (Proc.devRef .tc main_arg3) = x3) :
    after (opsLayer1 (F := Ideal)) W (Proc.devRef .tc main_v47) = ReadP.val_main_v47 (F := Ideal) x0 x1 x2 x3 := by
  eval_stage
  rw [h3, h6, h29, h0, h2, h3']
  rfl

/-- The third stretch writes neither index list, nor the per-edge factors, nor the second layer's arguments. -/
theorem layer1_kept (W : Valuation τ sig (Elt Ideal)) :
    after (opsLayer1 (F := Ideal)) W (Proc.devRef .tc main_v3) = W (Proc.devRef .tc main_v3)
    ∧ after (opsLayer1 (F := Ideal)) W (Proc.devRef .tc main_v6) = W (Proc.devRef .tc main_v6)
    ∧ after (opsLayer1 (F := Ideal)) W (Proc.devRef .tc main_v29) = W (Proc.devRef .tc main_v29)
    ∧ after (opsLayer1 (F := Ideal)) W (Proc.devRef .tc main_arg4) = W (Proc.devRef .tc main_arg4)
    ∧ after (opsLayer1 (F := Ideal)) W (Proc.devRef .tc main_arg5) = W (Proc.devRef .tc main_arg5) := by
  refine ⟨?_, ?_, ?_, ?_, ?_⟩ <;> eval_stage

set_option maxHeartbeats 1000000 in
/-- The second layer, from the first layer's output, the index lists, the per-edge factors, the second weights and
    the second bias. -/
theorem layer2_stage (W : Valuation τ sig (Elt Ideal)) (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (h47 : W (Proc.devRef .tc main_v47) = ReadP.val_main_v47 (F := Ideal) x0 x1 x2 x3)
    (h3 : W (Proc.devRef .tc main_v3) = ReadP.val_main_v3 (F := Ideal) x1)
    (h6 : W (Proc.devRef .tc main_v6) = ReadP.val_main_v6 (F := Ideal) x1)
    (h29 : W (Proc.devRef .tc main_v29) = ReadP.val_main_v29 (F := Ideal) x1)
    (h4 : W (Proc.devRef .tc main_arg4) = x4) (h5 : W (Proc.devRef .tc main_arg5) = x5) :
    after (opsLayer2 (F := Ideal)) W (Proc.devRef .tc main_v64) = ReadP.val_main_v64 (F := Ideal) x0 x1 x2 x3 x4 x5 := by
  eval_stage
  rw [h47, h3, h6, h29, h4, h5]
  rfl

set_option maxHeartbeats 1000000 in
/-- The row-wise logarithm of the softmax, from the second layer's output. -/
theorem logSoftmax_stage (W : Valuation τ sig (Elt Ideal)) (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (h64 : W (Proc.devRef .tc main_v64) = ReadP.val_main_v64 (F := Ideal) x0 x1 x2 x3 x4 x5) :
    after (opsLogSoftmax (F := Ideal)) W (Proc.devRef .tc main_v65) = ReadP.val_main_v65 (F := Ideal) x0 x1 x2 x3 x4 x5 := by
  eval_stage
  rw [h64]
  rfl

/-! ## The whole fold -/

/-- The fold of the reference's 98 operations over the launch contents, read at the result's buffer, is the last stage
    of the reading of the program as functions of its six arguments. -/
theorem result_eq (m : (ℓ : Loc nD τ sig) → Buf (Elt Ideal) ℓ) (c : Dev nD) :
    after (Cert.ReferenceIdeal.ValueP.ops (F := Ideal)) (launchContents m c) (Proc.devRef .tc main_v65)
      = Cert.ReferenceIdeal.ReadP.val_main_v65 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [ops_split, after_append, after_append, after_append, after_append]
  obtain ⟨i3, i6⟩ := idx_stage (launchContents m c)
  obtain ⟨ia0, ia2, ia3, ia4, ia5⟩ := idx_kept (launchContents m c)
  obtain ⟨n3, n6, na0, na2, na3, na4, na5⟩ := norm_kept (after (opsIdx (F := Ideal)) (launchContents m c))
  have n29 := norm_stage (after (opsIdx (F := Ideal)) (launchContents m c)) _ i3 i6
  obtain ⟨l3, l6, l29, la4, la5⟩ :=
    layer1_kept (after (opsNorm (F := Ideal)) (after (opsIdx (F := Ideal)) (launchContents m c)))
  have l47 := layer1_stage (after (opsNorm (F := Ideal)) (after (opsIdx (F := Ideal)) (launchContents m c))) _ _ _ _
    (n3.trans i3) (n6.trans i6) n29 (na0.trans ia0) (na2.trans ia2) (na3.trans ia3)
  have s64 := layer2_stage
    (after (opsLayer1 (F := Ideal)) (after (opsNorm (F := Ideal)) (after (opsIdx (F := Ideal)) (launchContents m c))))
    _ _ _ _ _ _ l47 (l3.trans (n3.trans i3)) (l6.trans (n6.trans i6)) (l29.trans n29)
    (la4.trans (na4.trans ia4)) (la5.trans (na5.trans ia5))
  exact logSoftmax_stage _ _ _ _ _ _ _ s64

end Cert.ReferenceIdeal.Stages

end
-- ==== Proof.HostFacts.lean ====
/-
  Facts about the host functions of the edge list: wrapped indices, and the node factors.

  * An index list laid out as a 1650000 × 1 column reads, at edge e, the list's entry e.
  * Wrapping adds 50000 to negative indices only, so an index that already is a node n ∈ [0, 50000) is unchanged, and
    clamping it into [0, 49999] gives n.
  * The in-degree of a node is 0 plus a finite sum of ones, a real number; the node factor is 1/√degree where the degree
    is positive (the reciprocal square root of a positive real is real) and 0 elsewhere, so every factor is real.
  * A vector recast as a column or as a single row keeps its entries in order.
-/
import proofs.«133153_j58557584114028_2_alg».proof.Proof.HostDefs
import proofs.«133153_j58557584114028_2_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Glue

open Cert.KernelIdeal Cert.KernelIdeal.Gen Idealize.ShloMosaic Idealize.ShloMosaic.ValueIdx
open Cert.LibRowGatherScatter Cert.Gcn

/-- A 1650000 × 1 index column reads, at edge e, the list's entry e. -/
theorem colK_apply (v : Indices) (e : Fin 1650000) : colK v (colIdx e) = v (ix1 e) := by
  unfold colK
  exact broadcastInDim_apply _ bcast_S1650000_S1650000x1_0 v (colIdx e) (ix1 e) (fun a => match a with
    | ⟨0, _⟩ => by show e.val = if (1650000 : Nat) = 1 then 0 else e.val; rw [if_neg (by decide)])

/-- If the raw index of edge e, read as a signed integer, is a node n (so it is not negative), wrapping does not change it,
    and clamping it into [0, 49999] gives n. -/
theorem wrap_lands (v : Indices) (e : Fin 1650000) (n : Fin 50000)
    (h : (colK v (colIdx e)).toInt = (n.val : Int)) :
    clampRow 50000 (by decide) (colK (wrapK v) (colIdx e)) = n := by
  rw [colK_apply] at h ⊢
  have hnot : (v (ix1 e)).slt 0#32 = false := by
    show decide ((v (ix1 e)).toInt < (0#32 : BitVec 32).toInt) = false
    rw [h, show (0#32 : BitVec 32).toInt = 0 from by decide]
    exact decide_eq_false (by omega)
  have hw : wrapK v (ix1 e) = v (ix1 e) := by
    unfold wrapK
    rw [select_apply]
    have hc : cmpi .slt v (broadcastInDim S1650000 ![] bcast_S_S1650000 (constantI S_ 32 0#32)) (ix1 e) = 0#1 := by
      show BitVec.ofBool ((v (ix1 e)).slt 0#32) = 0#1
      rw [hnot]; rfl
    rw [hc, select_zero]
  rw [hw]
  apply Fin.ext
  show min (v (ix1 e)).toInt.toNat (50000 - 1) = n.val
  rw [h]
  have := n.isLt
  omega

/-- The pattern of 1.0 is the extended real one. -/
theorem one_f32 : Ideal.ofBits .f32 0x3F800000#32 = 1 := by
  simp [Ideal.ofBits, Ideal.ieee, -EReal.coe_mul]; norm_num

/-- A scatter-add of real updates into a real entry is real: the entry plus a finite sum of updates. -/
theorem scatterAdd_real {s si su : Shape} (d : ScatterDims s si su) {w : Nat} (x : FVec Ideal s .f32) (idx : IVec si w)
    (upd : FVec Ideal su .f32) (i : s.Idx) (hx : IsReal (x i)) (hu : ∀ j, IsReal (upd j)) :
    IsReal (Host.scatterAdd (F := Ideal) d x idx upd i) := by
  show IsReal (x i + ∑ j ∈ Finset.univ.filter (fun j => d.resultIdx? j idx = some i), upd j)
  exact IsReal.add hx (IsReal.sum _ _ fun j _ => hu j)

/-- The in-degree of a node is a real number: zero plus a finite sum of ones. -/
theorem deg_real (ei : Edges) (i : S50000.Idx) : IsReal (degK ei i) := by
  unfold degK
  refine scatterAdd_real _ _ _ _ i ?_ fun j => ?_
  · show IsReal (Ideal.ofBits .f32 0x00000000#32)
    rw [Ideal.ofBits_zero_f32]; exact IsReal.zero
  · show IsReal (Ideal.ofBits .f32 0x3F800000#32)
    rw [one_f32]; exact IsReal.one

/-- Where the degree d(i) is a real number, the factor — 1/√d(i) if d(i) > 0, else 0 — is a real number: the reciprocal
    square root of a positive real is real. -/
theorem factor_real (d : FVec Ideal S50000 .f32) (i : S50000.Idx) (hd : IsReal (d i)) :
    IsReal (select (cmpf (F := Ideal) .ogt d (broadcastInDim S50000 ![] bcast_S_S50000 (constant (F := Ideal) S_ .f32 0x00000000#32)))
      (Host.rsqrt (F := Ideal) (φ := .f32) d)
      (broadcastInDim S50000 ![] bcast_S_S50000 (id (constant (F := Ideal) S_ .f32 0x00000000#32))) i) := by
  obtain ⟨r, hr⟩ := hd
  rw [select_apply]
  show IsReal (Scalar.select (Ideal.cmp .ogt (d i) (Ideal.ofBits .f32 0x00000000#32))
    (Ideal.rsqrt (d i)) (Ideal.ofBits .f32 0x00000000#32))
  rw [hr, Ideal.ofBits_zero_f32]
  by_cases hpos : 0 < r
  · have hc : Ideal.cmp .ogt (r : EReal) 0 = 1#1 := by
      show BitVec.ofBool (decide ((0 : EReal) < (r : EReal))) = 1#1
      rw [decide_eq_true (EReal.coe_pos.2 hpos)]; rfl
    rw [hc, select_one, Ideal.rsqrt_coe, if_neg (not_lt.2 hpos.le), if_neg hpos.ne']
    exact IsReal.coe _
  · have hc : Ideal.cmp .ogt (r : EReal) 0 = 0#1 := by
      show BitVec.ofBool (decide ((0 : EReal) < (r : EReal))) = 0#1
      rw [decide_eq_false (fun h => hpos (EReal.coe_pos.1 h))]; rfl
    rw [hc, select_zero]
    exact IsReal.zero

/-- The node factors are real numbers: the degree is a finite sum of ones, and the factor is 1/√degree where the degree is
    positive and 0 elsewhere. -/
theorem dinv_real (ei : Edges) (i : S50000.Idx) : IsReal (dinvK ei i) := by
  unfold dinvK
  exact factor_real (degK ei) i (deg_real ei i)

/-- The column of node factors reads, at (n, 0), the factor of node n. -/
theorem dinvCol_apply (ei : Edges) (n : Fin 50000) : dinvColK ei (ix2 n (0 : Fin 1)) = dinvK ei (ix1 n) := by
  unfold dinvColK
  refine shapeCast_apply _ shapeCasts_S50000_S50000x1 (ix2 n (0 : Fin 1)) (ix1 n) ?_
  rw [Shape.rowMajor_val_one, Shape.rowMajor_val_two]
  show n.val = n.val * 1 + 0
  omega

/-- A vector of L entries recast as one row reads, at (0, l), entry l. -/
theorem row128_apply (x : FVec Ideal S128 .f32) (l : Fin 128) :
    shapeCast S1x128 x shapeCasts_S128_S1x128 (ix2 (0 : Fin 1) l) = x (ix1 l) := by
  refine shapeCast_apply x shapeCasts_S128_S1x128 (ix2 (0 : Fin 1) l) (ix1 l) ?_
  rw [Shape.rowMajor_val_one, Shape.rowMajor_val_two]
  show l.val = 0 * 128 + l.val
  omega
theorem row64_apply (x : FVec Ideal S64 .f32) (l : Fin 64) :
    shapeCast S1x64 x shapeCasts_S64_S1x64 (ix2 (0 : Fin 1) l) = x (ix1 l) := by
  refine shapeCast_apply x shapeCasts_S64_S1x64 (ix2 (0 : Fin 1) l) (ix1 l) ?_
  rw [Shape.rowMajor_val_one, Shape.rowMajor_val_two]
  show l.val = 0 * 64 + l.val
  omega

end Cert.KernelIdeal.Glue

end
-- ==== Proof.Ident.lean ====
/-
  The reference program and the blocked program compute the same host functions of the edge list: the wrapped source
  and destination index columns, the raw destination column, and the node factors are, operation for operation, the
  same terms in both. This module records those identities, so that everything after it speaks of one set of named
  functions.
-/
import proofs.«133153_j58557584114028_2_alg».proof.Proof.HostDefs
import proofs.«133153_j58557584114028_2_alg».proof.Proof.RefRead

noncomputable section

namespace Cert.Bridge

open Idealize.ShloMosaic Cert.KernelIdeal.Glue Cert.ReferenceIdeal.ReadP

section Ident

attribute [local irreducible] Host.scatterAdd Host.gather Host.rsqrt cmpf cmpi addi select broadcastInDim constant constantI
  shapeCast extractStridedSlice iotaInDim concatenate

variable (x1 : Edges)

/-- The node factors. -/
theorem ref_dinv : val_main_v14 (F := Ideal) x1 = dinvK x1 := rfl
/-- The wrapped source column, computed three times by the reference. -/
theorem ref_srcW20 : val_main_v20 (F := Ideal) x1 = colK (wrapK (srcK x1)) := rfl
theorem ref_srcW36 : val_main_v36 (F := Ideal) x1 = colK (wrapK (srcK x1)) := rfl
theorem ref_srcW54 : val_main_v54 (F := Ideal) x1 = colK (wrapK (srcK x1)) := rfl
/-- The wrapped destination column. -/
theorem ref_dstW27 : val_main_v27 (F := Ideal) x1 = colK (wrapK (dstK x1)) := rfl
/-- The raw destination column, computed three times by the reference. -/
theorem ref_dst9 : val_main_v9 (F := Ideal) x1 = colK (dstK x1) := rfl
theorem ref_dst42 : val_main_v42 (F := Ideal) x1 = colK (dstK x1) := rfl
theorem ref_dst60 : val_main_v60 (F := Ideal) x1 = colK (dstK x1) := rfl

end Ident

end Cert.Bridge

end
-- ==== Proof.Layer.lean ====
/-
  The layer law for a scaled matrix product, and finiteness carried through a layer.

  Both layers of the network have the same shape: the aggregated array is the scatter-add, along the edges, of gathered
  rows of a matrix product x · w whose rows were scaled by the node factors. When x and w have real entries, so has the
  product, and the layer law applies; and a scatter-add of real updates into zeros is real, so the next layer starts
  from real entries again.
-/
import proofs.«133153_j58557584114028_2_alg».proof.Proof.Algebra

noncomputable section

open scoped BigOperators

namespace Cert.Gcn

open Idealize.ShloMosaic Idealize.ShloMosaic.ValueIdx Cert.LibRowGatherScatter

/-- An entry of a product of matrices with real entries is real. -/
theorem isReal_product {M K L : Nat} (x : Mat M K) (w : Mat K L) (hx : ∀ i, IsReal (x i)) (hw : ∀ i, IsReal (w i))
    (n : Fin M) (l : Fin L) : IsReal (∑ k : Fin K, x (ix2 n k) * w (ix2 k l)) :=
  IsReal.sum _ _ fun k _ => (hx _).mul (hw _)

/-- A scatter-add of real updates into an array of zeros has real entries. -/
theorem isReal_scatterAdd {s si su : Shape} (d : ScatterDims s si su) {w : Nat} (Z : s.Idx → EReal) (idx : IVec si w)
    (U : su.Idx → EReal) (hZ : ∀ i, Z i = 0) (hU : ∀ j, IsReal (U j)) (i : s.Idx) :
    IsReal (Ideal.hostScatterAdd d Z idx U i) := by
  unfold Ideal.hostScatterAdd
  rw [hZ]
  exact IsReal.zero.add (IsReal.sum _ _ fun j _ => hU j)

/-- A gathered row entry of an array with real entries is real. -/
theorem isReal_gather_row {N E L w : Nat} (hN : 0 < N)
    (wfG : GatherDims.WF ⟨2, ![N, L]⟩ ⟨2, ![E, 1]⟩ ⟨2, ![E, L]⟩ [1] [0] [] [0] [] 1 ![1, L])
    (h : Mat N L) (src : IVec ⟨2, ![E, 1]⟩ w) (hh : ∀ i, IsReal (h i)) (j : (⟨2, ![E, L]⟩ : Shape).Idx) :
    IsReal (Host.gather (rowGatherDims N E L wfG) h src j) := by
  obtain ⟨e, k, rfl⟩ : ∃ (e : Fin E) (k : Fin L), j = ix2 e k := ⟨row j, col j, (ix2_row_col j).symm⟩
  rw [gather_row_apply hN wfG h src e k]
  exact hh _
/-- A gathered entry of a vector with real entries is real. -/
theorem isReal_gather_vec {N E w : Nat} (hN : 0 < N)
    (wfV : GatherDims.WF ⟨1, ![N]⟩ ⟨2, ![E, 1]⟩ ⟨1, ![E]⟩ [] [0] [] [0] [] 1 ![1])
    (dv : (⟨1, ![N]⟩ : Shape).Idx → EReal) (src : IVec ⟨2, ![E, 1]⟩ w) (hdv : ∀ n, IsReal (dv n)) (e : Fin E) :
    IsReal (Host.gather (vecGatherDims N E wfV) dv src (ix1 e)) := by
  rw [gather_vec_apply hN wfV dv src e]
  exact hdv _

/-- THE LAYER LAW FOR A PRODUCT. `h` is the product x · w read entry by entry; the rows scaled at the source are
    `scaledProduct x w d2`. -/
theorem layer_law_product {N E K L w : Nat} (hN : 0 < N)
    (wfS : ScatterDims.WF ⟨2, ![N, L]⟩ ⟨2, ![E, 1]⟩ ⟨2, ![E, L]⟩ [1] [0] [0] 1)
    (wfG : GatherDims.WF ⟨2, ![N, L]⟩ ⟨2, ![E, 1]⟩ ⟨2, ![E, L]⟩ [1] [0] [] [0] [] 1 ![1, L])
    (wfV : GatherDims.WF ⟨1, ![N]⟩ ⟨2, ![E, 1]⟩ ⟨1, ![E]⟩ [] [0] [] [0] [] 1 ![1])
    (x : Mat N K) (wt : Mat K L) (h Z : Mat N L) (dv : (⟨1, ![N]⟩ : Shape).Idx → EReal) (d2 : Mat N 1)
    (src dstRaw dstW : IVec ⟨2, ![E, 1]⟩ w)
    (hZ : ∀ i, Z i = 0) (hd2 : ∀ n : Fin N, d2 (ix2 n (0 : Fin 1)) = dv (ix1 n))
    (hh : ∀ (n : Fin N) (l : Fin L), h (ix2 n l) = ∑ k : Fin K, x (ix2 n k) * wt (ix2 k l))
    (hx : ∀ i, IsReal (x i)) (hw : ∀ i, IsReal (wt i)) (hdv : ∀ n, IsReal (dv n))
    (hwrap : ∀ (e : Fin E) (n : Fin N), (dstRaw (colIdx e)).toInt = (n.val : Int) → clampRow N hN (dstW (colIdx e)) = n)
    (n : Fin N) (l : Fin L) :
    Ideal.hostScatterAdd (rowScatterDims N E L wfS) Z dstRaw
        (Host.gather (rowGatherDims N E L wfG) (scaledProduct x wt d2) src) (ix2 n l) * d2 (ix2 n (0 : Fin 1))
      = Ideal.hostScatterAdd (rowScatterDims N E L wfS) Z dstRaw
          (fun j => Host.gather (rowGatherDims N E L wfG) h src j
            * (Host.gather (vecGatherDims N E wfV) dv src (ix1 (row j))
                * Host.gather (vecGatherDims N E wfV) dv dstW (ix1 (row j)))) (ix2 n l) :=
  layer_law hN wfS wfG wfV h (scaledProduct x wt d2) Z dv d2 src dstRaw dstW hZ hd2
    (fun n l => by rw [scaledProduct_apply, scaledProductAt, hh])
    (fun i => by
      obtain ⟨a, b, rfl⟩ : ∃ (a : Fin N) (b : Fin L), i = ix2 a b := ⟨row i, col i, (ix2_row_col i).symm⟩
      rw [hh]; exact isReal_product x wt hx hw a b)
    hdv hwrap n l

/-- The reference's aggregated array of a layer has real entries. -/
theorem isReal_layer {N E L w : Nat} (hN : 0 < N)
    (wfS : ScatterDims.WF ⟨2, ![N, L]⟩ ⟨2, ![E, 1]⟩ ⟨2, ![E, L]⟩ [1] [0] [0] 1)
    (wfG : GatherDims.WF ⟨2, ![N, L]⟩ ⟨2, ![E, 1]⟩ ⟨2, ![E, L]⟩ [1] [0] [] [0] [] 1 ![1, L])
    (wfV : GatherDims.WF ⟨1, ![N]⟩ ⟨2, ![E, 1]⟩ ⟨1, ![E]⟩ [] [0] [] [0] [] 1 ![1])
    (h Z : Mat N L) (dv : (⟨1, ![N]⟩ : Shape).Idx → EReal) (src dstRaw dstW : IVec ⟨2, ![E, 1]⟩ w)
    (hZ : ∀ i, Z i = 0) (hh : ∀ i, IsReal (h i)) (hdv : ∀ n, IsReal (dv n)) (i : (⟨2, ![N, L]⟩ : Shape).Idx) :
    IsReal (Ideal.hostScatterAdd (rowScatterDims N E L wfS) Z dstRaw
          (fun j => Host.gather (rowGatherDims N E L wfG) h src j
            * (Host.gather (vecGatherDims N E wfV) dv src (ix1 (row j))
                * Host.gather (vecGatherDims N E wfV) dv dstW (ix1 (row j)))) i) :=
  isReal_scatterAdd _ Z dstRaw _ hZ (fun j =>
    (isReal_gather_row hN wfG h src hh j).mul
      ((isReal_gather_vec hN wfV dv src hdv (row j)).mul (isReal_gather_vec hN wfV dv dstW hdv (row j)))) i

end Cert.Gcn

end
-- ==== Proof.RefLayers.lean ====
/-
  The reference's two graph-convolution layers, read: each aggregated array is a scatter-add, along the raw
  destinations, of gathered rows of a matrix product, each weighted by the product of the node factors gathered at the
  edge's two ends; then the bias is added (and, after the first layer, the rectifier applied).

  Each reading follows the stages one operation at a time: a broadcast reads its operand at the index with the unit
  axes dropped, a product of matrices is the sum over the contracted coordinate, the host's index columns and node
  factors are the named functions of the edge list, and the printed dimension numbers of the gathers and of the
  scatter-add are the row and vector records the layer law is stated over.
-/
import proofs.«133153_j58557584114028_2_alg».proof.Proof.Ident
import proofs.«133153_j58557584114028_2_alg».proof.Proof.Layer
import Idealize.ShloMosaic.Lib.ValueIdx
import Idealize.ShloMosaic.Lib.Pipeline.Value
import Idealize.ShloMosaic.PureOps.Ideal.Laws

noncomputable section

open scoped BigOperators

namespace Cert.Bridge

open Idealize.ShloMosaic Idealize.ShloMosaic.ValueIdx Cert.Gcn Cert.LibRowGatherScatter
open Cert.KernelIdeal.Glue Cert.ReferenceIdeal.ReadP

/-- The reference's arguments, typed as its stages take them. -/
abbrev X0 : Type := (⟨Cert.ReferenceIdeal.S50000x256, .f32⟩ : BufTy).Contents (Elt Ideal)
abbrev X2 : Type := (⟨Cert.ReferenceIdeal.S256x128, .f32⟩ : BufTy).Contents (Elt Ideal)
abbrev X3 : Type := (⟨Cert.ReferenceIdeal.S128, .f32⟩ : BufTy).Contents (Elt Ideal)
abbrev X4 : Type := (⟨Cert.ReferenceIdeal.S128x64, .f32⟩ : BufTy).Contents (Elt Ideal)
abbrev X5 : Type := (⟨Cert.ReferenceIdeal.S64, .f32⟩ : BufTy).Contents (Elt Ideal)

/-- A host scatter-add at the extended reals is the exact sum, whatever name its dimension numbers carry. -/
theorem scatterAdd_eq_of_dims {s si su : Shape} {w : Nat} (d d' : ScatterDims s si su) (h : d = d')
    (x : FVec Ideal s .f32) (idx : IVec si w) (u : FVec Ideal su .f32) :
    Host.scatterAdd (F := Ideal) d x idx u = Ideal.hostScatterAdd d' x idx u := by
  subst h; rfl

/-- The zero arrays the reference scatter-adds into. -/
theorem ref_zero128 (i : Cert.ReferenceIdeal.S50000x128.Idx) : val_main_v41 (F := Ideal) i = 0 := by
  rw [val_main_v41_apply, val_main_cst_8_apply, Ideal.ofBits_def, Ideal.ofBits_zero_f32]
theorem ref_zero64 (i : Cert.ReferenceIdeal.S50000x64.Idx) : val_main_v59 (F := Ideal) i = 0 := by
  rw [val_main_v59_apply, val_main_cst_11_apply, Ideal.ofBits_def, Ideal.ofBits_zero_f32]

/-- The first product, entry by entry. -/
theorem ref_product1 (x0 : X0) (x2 : X2) (n : Fin 50000) (l : Fin 128) :
    val_main_v30 (F := Ideal) x0 x2 (ix2 n l) = ∑ k : Fin 256, x0 (ix2 n k) * x2 (ix2 k l) := by
  rw [val_main_v30_apply]
  refine Finset.sum_congr rfl fun k _ => ?_
  have el : lidx_main_v30 (ix2 n l) k = ix2 n k :=
    funext fun a => Fin.ext (by match a with | ⟨0, _⟩ => rfl | ⟨1, _⟩ => rfl)
  have er : ridx_main_v30 (ix2 n l) k = ix2 k l :=
    funext fun a => Fin.ext (by match a with | ⟨0, _⟩ => rfl | ⟨1, _⟩ => rfl)
  rw [el, er]

/-- The first layer's aggregated array. -/
theorem ref_layer1 (wfS : ScatterDims.WF ⟨2, ![50000, 128]⟩ ⟨2, ![1650000, 1]⟩ ⟨2, ![1650000, 128]⟩ [1] [0] [0] 1)
    (wfG : GatherDims.WF ⟨2, ![50000, 128]⟩ ⟨2, ![1650000, 1]⟩ ⟨2, ![1650000, 128]⟩ [1] [0] [] [0] [] 1 ![1, 128])
    (wfV : GatherDims.WF ⟨1, ![50000]⟩ ⟨2, ![1650000, 1]⟩ ⟨1, ![1650000]⟩ [] [0] [] [0] [] 1 ![1])
    (x0 : X0) (x1 : Edges) (x2 : X2) :
    val_main_v43 (F := Ideal) x0 x1 x2
      = Ideal.hostScatterAdd (rowScatterDims 50000 1650000 128 wfS) (val_main_v41 (F := Ideal)) (colK (dstK x1))
          (fun j => Host.gather (rowGatherDims 50000 1650000 128 wfG) (val_main_v30 (F := Ideal) x0 x2) (colK (wrapK (srcK x1))) j
            * (Host.gather (vecGatherDims 50000 1650000 wfV) (dinvK x1) (colK (wrapK (srcK x1))) (ix1 (row j))
                * Host.gather (vecGatherDims 50000 1650000 wfV) (dinvK x1) (colK (wrapK (dstK x1))) (ix1 (row j)))) := by
  have hG : Cert.ReferenceIdeal.gather_S50000x128_S1650000x1_S1650000x128_1_0_n_n_0_1_1128 = rowGatherDims 50000 1650000 128 wfG := rfl
  have hV : Cert.ReferenceIdeal.gather_S50000_S1650000x1_S1650000_n_0_n_n_0_1_1 = vecGatherDims 50000 1650000 wfV := rfl
  unfold val_main_v43
  rw [scatterAdd_eq_of_dims Cert.ReferenceIdeal.scatter_S50000x128_S1650000x1_S1650000x128_1_0_0_1 (rowScatterDims 50000 1650000 128 wfS) rfl,
    ref_dst42]
  refine congrArg (Ideal.hostScatterAdd (rowScatterDims 50000 1650000 128 wfS) (val_main_v41 (F := Ideal)) (colK (dstK x1))) ?_
  funext j
  have e : idx_main_v38 (idx_main_v39 j) = ix1 (row j) :=
    funext fun a => Fin.ext (by match a with | ⟨0, _⟩ => rfl)
  rw [val_main_v40_apply, val_main_v39_apply, val_main_v38_apply, val_main_v29_apply, e]
  unfold val_main_v37 val_main_v21 val_main_v28
  rw [ref_srcW36, ref_srcW20, ref_dstW27, ref_dinv, hG, hV, Ideal.mulf_def, Ideal.mulf_def]

/-- After the bias and the rectifier. -/
theorem ref_relu1 (x0 : X0) (x1 : Edges) (x2 : X2) (x3 : X3) (n : Fin 50000) (l : Fin 128) :
    val_main_v47 (F := Ideal) x0 x1 x2 x3 (ix2 n l)
      = max (val_main_v43 (F := Ideal) x0 x1 x2 (ix2 n l) + x3 (ix1 l)) 0 := by
  have e : idx_main_v44 (idx_main_v45 (ix2 n l)) = ix1 l :=
    funext fun a => Fin.ext (by match a with | ⟨0, _⟩ => rfl)
  rw [val_main_v47_apply, val_main_v46_apply, val_main_call1_v0_apply, val_main_call1_cst_apply, val_main_v45_apply,
    val_main_v44_apply, e, Ideal.maximumf_def, Ideal.addf_def, Ideal.ofBits_def, Ideal.ofBits_zero_f32]

/-- The second product, entry by entry. -/
theorem ref_product2 (x0 : X0) (x1 : Edges) (x2 : X2) (x3 : X3) (x4 : X4) (n : Fin 50000) (l : Fin 64) :
    val_main_v48 (F := Ideal) x0 x1 x2 x3 x4 (ix2 n l)
      = ∑ k : Fin 128, val_main_v47 (F := Ideal) x0 x1 x2 x3 (ix2 n k) * x4 (ix2 k l) := by
  rw [val_main_v48_apply]
  refine Finset.sum_congr rfl fun k _ => ?_
  have el : lidx_main_v48 (ix2 n l) k = ix2 n k :=
    funext fun a => Fin.ext (by match a with | ⟨0, _⟩ => rfl | ⟨1, _⟩ => rfl)
  have er : ridx_main_v48 (ix2 n l) k = ix2 k l :=
    funext fun a => Fin.ext (by match a with | ⟨0, _⟩ => rfl | ⟨1, _⟩ => rfl)
  rw [el, er]

/-- The second layer's aggregated array. -/
theorem ref_layer2 (wfS : ScatterDims.WF ⟨2, ![50000, 64]⟩ ⟨2, ![1650000, 1]⟩ ⟨2, ![1650000, 64]⟩ [1] [0] [0] 1)
    (wfG : GatherDims.WF ⟨2, ![50000, 64]⟩ ⟨2, ![1650000, 1]⟩ ⟨2, ![1650000, 64]⟩ [1] [0] [] [0] [] 1 ![1, 64])
    (wfV : GatherDims.WF ⟨1, ![50000]⟩ ⟨2, ![1650000, 1]⟩ ⟨1, ![1650000]⟩ [] [0] [] [0] [] 1 ![1])
    (x0 : X0) (x1 : Edges) (x2 : X2) (x3 : X3) (x4 : X4) :
    val_main_v61 (F := Ideal) x0 x1 x2 x3 x4
      = Ideal.hostScatterAdd (rowScatterDims 50000 1650000 64 wfS) (val_main_v59 (F := Ideal)) (colK (dstK x1))
          (fun j => Host.gather (rowGatherDims 50000 1650000 64 wfG) (val_main_v48 (F := Ideal) x0 x1 x2 x3 x4) (colK (wrapK (srcK x1))) j
            * (Host.gather (vecGatherDims 50000 1650000 wfV) (dinvK x1) (colK (wrapK (srcK x1))) (ix1 (row j))
                * Host.gather (vecGatherDims 50000 1650000 wfV) (dinvK x1) (colK (wrapK (dstK x1))) (ix1 (row j)))) := by
  have hG : Cert.ReferenceIdeal.gather_S50000x64_S1650000x1_S1650000x64_1_0_n_n_0_1_164 = rowGatherDims 50000 1650000 64 wfG := rfl
  have hV : Cert.ReferenceIdeal.gather_S50000_S1650000x1_S1650000_n_0_n_n_0_1_1 = vecGatherDims 50000 1650000 wfV := rfl
  unfold val_main_v61
  rw [scatterAdd_eq_of_dims Cert.ReferenceIdeal.scatter_S50000x64_S1650000x1_S1650000x64_1_0_0_1 (rowScatterDims 50000 1650000 64 wfS) rfl,
    ref_dst60]
  refine congrArg (Ideal.hostScatterAdd (rowScatterDims 50000 1650000 64 wfS) (val_main_v59 (F := Ideal)) (colK (dstK x1))) ?_
  funext j
  have e : idx_main_v56 (idx_main_v57 j) = ix1 (row j) :=
    funext fun a => Fin.ext (by match a with | ⟨0, _⟩ => rfl)
  rw [val_main_v58_apply, val_main_v57_apply, val_main_v56_apply, val_main_v29_apply, e]
  unfold val_main_v55 val_main_v21 val_main_v28
  rw [ref_srcW54, ref_srcW20, ref_dstW27, ref_dinv, hG, hV, Ideal.mulf_def, Ideal.mulf_def]

/-- After the second bias. -/
theorem ref_bias2 (x0 : X0) (x1 : Edges) (x2 : X2) (x3 : X3) (x4 : X4) (x5 : X5) (n : Fin 50000) (l : Fin 64) :
    val_main_v64 (F := Ideal) x0 x1 x2 x3 x4 x5 (ix2 n l)
      = val_main_v61 (F := Ideal) x0 x1 x2 x3 x4 (ix2 n l) + x5 (ix1 l) := by
  have e : idx_main_v62 (idx_main_v63 (ix2 n l)) = ix1 l :=
    funext fun a => Fin.ext (by match a with | ⟨0, _⟩ => rfl)
  rw [val_main_v64_apply, val_main_v63_apply, val_main_v62_apply, e, Ideal.addf_def]

end Cert.Bridge

end
-- ==== Proof.RefLogSoftmax.lean ====
/-
  The reference's logarithm of the softmax, read: its last stage is the row-wise shifted form of the previous one.

  The stages are: each row's maximum as a reduction from −∞, the maximum of the −∞ splat with it (which changes
  nothing, a fold of max from −∞ being at least −∞), that column broadcast over the row's entries and subtracted,
  the exponential, each row's sum from 0, its logarithm broadcast over the row's entries and subtracted. Read at
  entry (n, l) that is (z(n, l) − max_n) − log Σ_k exp(z(n, k) − max_n).
-/
import proofs.«133153_j58557584114028_2_alg».proof.Proof.RefRead
import proofs.«133153_j58557584114028_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.LogSoftmax

open Cert.ReferenceIdeal Cert.ReferenceIdeal.Gen Cert.ReferenceIdeal.ReadP Idealize.ShloMosaic Idealize.ShloMosaic.ValueIdx

/-- A maximum-reduction over the second axis of a 50000 × 64 array from the initial value b, read at row n: the fold
    of max from b over the row's 64 entries. -/
theorem hostRowMax_apply (z : FVec Ideal S50000x64 .f32) (cst : FVec Ideal S_ .f32)
    (h' : S50000x64.ReducesTo [1] S50000) (hu : 0 < S_.numel) (n : Fin 50000) :
    Host.reduce (FloatOps.maximumf (F := Ideal) (φ := .f32)) z cst h' hu (ix1 n)
      = (Finset.univ : Finset (Fin 64)).fold max (cst (Shape.Idx.first hu)) (fun k => z (ix2 n k)) := by
  have h : S50000x64.Reduces [1] S50000 := by decide
  refine (Host.reduce_eq_fold_single _ z cst h' h hu (ix1 n)).trans ?_
  show (Finset.univ : Finset (Fin 64)).fold max (cst (Shape.Idx.first hu)) (fun k => z (h.lift (ix1 n) k)) = _
  refine Finset.fold_congr fun k _ => congrArg z ?_
  funext d
  match d with
  | ⟨0, _⟩ => exact Fin.ext rfl
  | ⟨1, _⟩ => exact Fin.ext rfl

/-- The reference's result is the row-wise logarithm of the softmax (in the shifted form: subtract the row's maximum,
    then the logarithm of the row's sum of exponentials) of its last pre-softmax stage. -/
theorem result_eq_logSoftmax (x0 : (⟨S50000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v65 (F := Ideal) x0 x1 x2 x3 x4 x5
      = Cert.Gcn.logSoftmaxRows (M := 50000) (L := 64) (val_main_v64 (F := Ideal) x0 x1 x2 x3 x4 x5) := by
  funext i
  obtain ⟨n, l, rfl⟩ : ∃ (n : Fin 50000) (l : Fin 64), i = ix2 n l := ⟨i 0, i 1, eq_ix2 i⟩
  -- the row's maximum: the maximum of −∞ with the fold of max from −∞ is that fold
  have hmax : ∀ n : Fin 50000, val_main_call2_v2 (F := Ideal) x0 x1 x2 x3 x4 x5 (ix1 n)
      = Cert.Gcn.rowMax (M := 50000) (L := 64) (val_main_v64 (F := Ideal) x0 x1 x2 x3 x4 x5) n := by
    intro n
    rw [val_main_call2_v2_apply, val_main_call2_v1_apply, val_main_call2_cst_0_apply]
    unfold val_main_call2_v0
    generalize val_main_v64 (F := Ideal) x0 x1 x2 x3 x4 x5 = z
    rw [hostRowMax_apply]
    exact max_eq_right ((Finset.le_fold_max _).mpr (Or.inl le_rfl))
  -- broadcast back over the row's entries
  have hcol : ∀ (n : Fin 50000) (k : Fin 64), val_main_call2_v4 (F := Ideal) x0 x1 x2 x3 x4 x5 (ix2 n k)
      = Cert.Gcn.rowMax (M := 50000) (L := 64) (val_main_v64 (F := Ideal) x0 x1 x2 x3 x4 x5) n := by
    intro n k
    rw [val_main_call2_v4_apply, val_main_call2_v3_apply]
    have e : idx_main_call2_v3 (idx_main_call2_v4 (ix2 n k)) = ix1 n :=
      funext fun a => Fin.ext (by match a with | ⟨0, _⟩ => rfl)
    rw [e]
    exact hmax n
  -- the shifted entries
  have hshift : ∀ (n : Fin 50000) (k : Fin 64), val_main_call2_v5 (F := Ideal) x0 x1 x2 x3 x4 x5 (ix2 n k)
      = (val_main_v64 (F := Ideal) x0 x1 x2 x3 x4 x5) (ix2 n k) - Cert.Gcn.rowMax (M := 50000) (L := 64) (val_main_v64 (F := Ideal) x0 x1 x2 x3 x4 x5) n := by
    intro n k
    rw [val_main_call2_v5_apply, hcol n k]
    rfl
  -- the logarithm of the row's sum of exponentials, broadcast back
  have hlog : val_main_call2_v10 (F := Ideal) x0 x1 x2 x3 x4 x5 (ix2 n l)
      = Ideal.log (∑ k : Fin 64, Ideal.exp ((val_main_v64 (F := Ideal) x0 x1 x2 x3 x4 x5) (ix2 n k) - Cert.Gcn.rowMax (M := 50000) (L := 64) (val_main_v64 (F := Ideal) x0 x1 x2 x3 x4 x5) n)) := by
    rw [val_main_call2_v10_apply, val_main_call2_v9_apply, val_main_call2_v8_apply]
    have e : idx_main_call2_v8 (idx_main_call2_v10 (ix2 n l)) = ix1 n :=
      funext fun a => Fin.ext (by match a with | ⟨0, _⟩ => rfl)
    rw [e, val_main_call2_v7_apply, val_main_call2_cst_1_apply, Ideal.hostUnary_log_def, Ideal.ofBits_def,
      Ideal.ofBits_zero_f32, zero_add]
    refine congrArg Ideal.log (Finset.sum_congr rfl fun k _ => ?_)
    have e7 : idx_main_call2_v7 (ix1 n) k = ix2 n k :=
      funext fun a => Fin.ext (by match a with | ⟨0, _⟩ => rfl | ⟨1, _⟩ => rfl)
    rw [e7, val_main_call2_v6_apply, hshift n k, Ideal.hostUnary_exp_def]
  rw [Cert.Gcn.logSoftmaxRows_apply, val_main_v65_apply, hshift n l, hlog]
  rfl

end Cert.ReferenceIdeal.LogSoftmax

end
-- ==== Proof.Bridge.lean ====
/-
  The bridge: the blocked program's result and the reference's last stage are one function of the six arguments.

  Layer by layer. The blocked program scales the rows of x · W₁ by the node factors before the gather, scatter-adds, and
  scales the sums by the arriving node's factor afterwards; the reference weights every gathered row of x · W₁ by the
  product of the two ends' factors and scatter-adds. By the layer law these agree, given real inputs: real inputs make
  the product real, the node factors are real, and an edge that lands on node n carries the destination factor δ(n).
  So the rectified first-layer outputs agree entry by entry, they are real, and the same argument applies to the
  second layer with the second weight matrix. The two programs then apply the same row-wise logarithm of the softmax
  to equal arrays.
-/
import proofs.«133153_j58557584114028_2_alg».proof.Proof.HostDefs
import proofs.«133153_j58557584114028_2_alg».proof.Proof.HostFacts
import proofs.«133153_j58557584114028_2_alg».proof.Proof.Ident
import proofs.«133153_j58557584114028_2_alg».proof.Proof.Layer
import proofs.«133153_j58557584114028_2_alg».proof.Proof.RefLayers
import proofs.«133153_j58557584114028_2_alg».proof.Proof.RefLogSoftmax

noncomputable section

open scoped BigOperators

namespace Cert.Bridge

open Idealize.ShloMosaic Idealize.ShloMosaic.ValueIdx Cert.Gcn Cert.LibRowGatherScatter
open Cert.KernelIdeal.Glue Cert.ReferenceIdeal.ReadP

section Forms

attribute [local irreducible] Host.gather broadcastInDim constant shapeCast extractStridedSlice iotaInDim concatenate
  Ideal.hostScatterAdd select cmpi addi

/-- The blocked program's 128-wide aggregation in the form the layer law speaks of. -/
theorem agg128_eq (wfS : ScatterDims.WF ⟨2, ![50000, 128]⟩ ⟨2, ![1650000, 1]⟩ ⟨2, ![1650000, 128]⟩ [1] [0] [0] 1)
    (wfG : GatherDims.WF ⟨2, ![50000, 128]⟩ ⟨2, ![1650000, 1]⟩ ⟨2, ![1650000, 128]⟩ [1] [0] [] [0] [] 1 ![1, 128])
    (hs : Mat 50000 128) (s t : Indices) :
    agg128K hs s t
      = Ideal.hostScatterAdd (rowScatterDims 50000 1650000 128 wfS) (val_main_v41 (F := Ideal)) (colK t)
          (Host.gather (rowGatherDims 50000 1650000 128 wfG) hs (colK (wrapK s))) := rfl
/-- The 64-wide one. -/
theorem agg64_eq (wfS : ScatterDims.WF ⟨2, ![50000, 64]⟩ ⟨2, ![1650000, 1]⟩ ⟨2, ![1650000, 64]⟩ [1] [0] [0] 1)
    (wfG : GatherDims.WF ⟨2, ![50000, 64]⟩ ⟨2, ![1650000, 1]⟩ ⟨2, ![1650000, 64]⟩ [1] [0] [] [0] [] 1 ![1, 64])
    (hs : Mat 50000 64) (s t : Indices) :
    agg64K hs s t
      = Ideal.hostScatterAdd (rowScatterDims 50000 1650000 64 wfS) (val_main_v59 (F := Ideal)) (colK t)
          (Host.gather (rowGatherDims 50000 1650000 64 wfG) hs (colK (wrapK s))) := rfl

end Forms

/-- THE BRIDGE. For real inputs the blocked program's result is the reference's last stage. -/
theorem kernelOut_eq_reference (x0 : FVec Ideal Cert.KernelIdeal.S50000x256 .f32) (x1 : Edges)
    (x2 : FVec Ideal Cert.KernelIdeal.S256x128 .f32) (x3 : FVec Ideal Cert.KernelIdeal.S128 .f32)
    (x4 : FVec Ideal Cert.KernelIdeal.S128x64 .f32) (x5 : FVec Ideal Cert.KernelIdeal.S64 .f32)
    (hx0 : ∀ i, IsReal (x0 i)) (hx2 : ∀ i, IsReal (x2 i)) (hx3 : ∀ i, IsReal (x3 i)) (hx4 : ∀ i, IsReal (x4 i))
    (hx5 : ∀ i, IsReal (x5 i)) :
    kernelOut x0 x1 x2 x3 x4 x5 = val_main_v65 (F := Ideal) x0 x1 x2 x3 x4 x5 := by
  have wfS1 : ScatterDims.WF ⟨2, ![50000, 128]⟩ ⟨2, ![1650000, 1]⟩ ⟨2, ![1650000, 128]⟩ [1] [0] [0] 1 := by decide
  have wfG1 : GatherDims.WF ⟨2, ![50000, 128]⟩ ⟨2, ![1650000, 1]⟩ ⟨2, ![1650000, 128]⟩ [1] [0] [] [0] [] 1 ![1, 128] := by decide
  have wfS2 : ScatterDims.WF ⟨2, ![50000, 64]⟩ ⟨2, ![1650000, 1]⟩ ⟨2, ![1650000, 64]⟩ [1] [0] [0] 1 := by decide
  have wfG2 : GatherDims.WF ⟨2, ![50000, 64]⟩ ⟨2, ![1650000, 1]⟩ ⟨2, ![1650000, 64]⟩ [1] [0] [] [0] [] 1 ![1, 64] := by decide
  have wfV : GatherDims.WF ⟨1, ![50000]⟩ ⟨2, ![1650000, 1]⟩ ⟨1, ![1650000]⟩ [] [0] [] [0] [] 1 ![1] := by decide
  have hN : 0 < 50000 := by decide
  have hwrap : ∀ (e : Fin 1650000) (n : Fin 50000), (colK (dstK x1) (colIdx e)).toInt = (n.val : Int) →
      clampRow 50000 hN (colK (wrapK (dstK x1)) (colIdx e)) = n := fun e n h => wrap_lands (dstK x1) e n h
  -- the first product is real
  have hP1 : ∀ i, IsReal (val_main_v30 (F := Ideal) x0 x2 i) := fun i => by
    obtain ⟨a, b, rfl⟩ : ∃ (a : Fin 50000) (b : Fin 128), i = ix2 a b := ⟨row i, col i, (ix2_row_col i).symm⟩
    rw [ref_product1]; exact isReal_product x0 x2 hx0 hx2 a b
  -- layer 1
  have L1 : ∀ (n : Fin 50000) (l : Fin 128),
      agg128K (scaledProduct (M := 50000) (K := 256) (L := 128) x0 x2 (dinvColK x1)) (srcK x1) (dstK x1) (ix2 n l)
          * dinvColK x1 (ix2 n (0 : Fin 1))
        = val_main_v43 (F := Ideal) x0 x1 x2 (ix2 n l) := fun n l => by
    rw [agg128_eq wfS1 wfG1, ref_layer1 wfS1 wfG1 wfV]
    exact layer_law_product hN wfS1 wfG1 wfV x0 x2 (val_main_v30 (F := Ideal) x0 x2) (val_main_v41 (F := Ideal))
      (dinvK x1) (dinvColK x1) (colK (wrapK (srcK x1))) (colK (dstK x1)) (colK (wrapK (dstK x1)))
      ref_zero128 (dinvCol_apply x1) (ref_product1 x0 x2) hx0 hx2 (dinv_real x1) hwrap n l
  have hA1 : ∀ i, IsReal (val_main_v43 (F := Ideal) x0 x1 x2 i) := fun i => by
    rw [ref_layer1 wfS1 wfG1 wfV]
    exact isReal_layer hN wfS1 wfG1 wfV _ _ (dinvK x1) _ _ _ ref_zero128 hP1 (dinv_real x1) i
  -- the rectified first-layer output
  have R1 : ∀ (n : Fin 50000) (k : Fin 128),
      reluAffine (M := 50000) (L := 128)
          (agg128K (scaledProduct (M := 50000) (K := 256) (L := 128) x0 x2 (dinvColK x1)) (srcK x1) (dstK x1))
          (dinvColK x1) (shapeCast Cert.KernelIdeal.S1x128 x3 Cert.KernelIdeal.Facts₀.shapeCasts_S128_S1x128) (ix2 n k)
        = val_main_v47 (F := Ideal) x0 x1 x2 x3 (ix2 n k) := fun n k => by
    rw [reluAffine_apply, affineRowsAt, L1, row128_apply, ref_relu1]
  have hR1 : ∀ i, IsReal (reluAffine (M := 50000) (L := 128)
          (agg128K (scaledProduct (M := 50000) (K := 256) (L := 128) x0 x2 (dinvColK x1)) (srcK x1) (dstK x1))
          (dinvColK x1) (shapeCast Cert.KernelIdeal.S1x128 x3 Cert.KernelIdeal.Facts₀.shapeCasts_S128_S1x128) i) := fun i => by
    obtain ⟨a, b, rfl⟩ : ∃ (a : Fin 50000) (b : Fin 128), i = ix2 a b := ⟨row i, col i, (ix2_row_col i).symm⟩
    rw [R1, ref_relu1]
    exact ((hA1 _).add (hx3 _)).max IsReal.zero
  -- layer 2
  have L2 : ∀ (n : Fin 50000) (l : Fin 64),
      agg64K (scaledProduct (M := 50000) (K := 128) (L := 64)
            (reluAffine (M := 50000) (L := 128)
              (agg128K (scaledProduct (M := 50000) (K := 256) (L := 128) x0 x2 (dinvColK x1)) (srcK x1) (dstK x1))
              (dinvColK x1) (shapeCast Cert.KernelIdeal.S1x128 x3 Cert.KernelIdeal.Facts₀.shapeCasts_S128_S1x128))
            x4 (dinvColK x1)) (srcK x1) (dstK x1) (ix2 n l)
          * dinvColK x1 (ix2 n (0 : Fin 1))
        = val_main_v61 (F := Ideal) x0 x1 x2 x3 x4 (ix2 n l) := fun n l => by
    rw [agg64_eq wfS2 wfG2, ref_layer2 wfS2 wfG2 wfV]
    exact layer_law_product hN wfS2 wfG2 wfV _ x4 (val_main_v48 (F := Ideal) x0 x1 x2 x3 x4) (val_main_v59 (F := Ideal))
      (dinvK x1) (dinvColK x1) (colK (wrapK (srcK x1))) (colK (dstK x1)) (colK (wrapK (dstK x1)))
      ref_zero64 (dinvCol_apply x1)
      (fun a b => by rw [ref_product2]; exact Finset.sum_congr rfl fun k _ => by rw [R1])
      hR1 hx4 (dinv_real x1) hwrap n l
  -- the two programs end with the same function of equal arrays
  unfold kernelOut
  rw [Cert.ReferenceIdeal.LogSoftmax.result_eq_logSoftmax]
  refine congrArg (logSoftmaxRows (M := 50000) (L := 64)) ?_
  funext i
  obtain ⟨n, l, rfl⟩ : ∃ (n : Fin 50000) (l : Fin 64), i = ix2 n l := ⟨row i, col i, (ix2_row_col i).symm⟩
  rw [affineRows_apply, affineRowsAt, L2, row64_apply, ref_bias2]

end Cert.Bridge

end
-- ==== Proof.lean ====
/- A two-layer graph convolution with a row-wise logarithm of the softmax, computed two ways, gives one result.

   The reference multiplies the node features by a weight matrix, gathers the rows along the edges (self-loops
   added), weights every gathered row by δ(source) · δ(destination) — δ(n) = 1/√degree(n) where the degree is positive,
   0 elsewhere —, sums the rows arriving at each node, and adds a bias; it does this twice, with a rectifier in
   between, and ends with the logarithm of the softmax of every row. The blocked program computes the products block by
   block on the matrix unit and moves the factor δ(destination) out of the sum: it scales the rows by δ(source) before
   the gather and the sums by δ(destination) after the scatter-add. Over the extended reals this is distributivity of
   a real factor over a finite sum of real numbers, which holds because the precondition makes every input a real
   number (Proof/Algebra.lean, Proof/Layer.lean, Proof/FinitePre.lean); an edge contributes to a node only if its raw
   destination index is that node, and then the factor the reference gathers at the destination is that node's
   (Proof/LibRowGatherScatter.lean, Proof/HostFacts.lean). Format changes are the identity on extended reals, a matrix
   product into a zero accumulator is the plain sum, and both programs apply the same shifted logarithm of the softmax
   to equal arrays.
   The blocked program's value is read off its run region by region (Proof/Region0.lean, Region1.lean, Region2.lean:
   after a region its output array is one function of the arrays it found; Proof/KernelGlue.lean: the host operations
   between the regions; Proof/KernelRun.lean: the run with the result named); the reference's value off its run
   (Proof/RefRun.lean, Proof/RefStages.lean) and its operation-by-operation reading (Proof/RefRead.lean,
   Proof/RefLayers.lean, Proof/RefLogSoftmax.lean); Proof/Bridge.lean joins the two. The ideal pass rewrote nothing, so
   the idealization claim is trivial. -/
import proofs.«133153_j58557584114028_2_alg».proof.Defs
import proofs.«133153_j58557584114028_2_alg».proof.Proof.Gen.Kernel
import proofs.«133153_j58557584114028_2_alg».proof.Proof.Gen.Kernel.Skeleton
import proofs.«133153_j58557584114028_2_alg».proof.Proof.Gen.Kernel.Launch
import proofs.«133153_j58557584114028_2_alg».proof.Proof.Gen.Kernel.Points
import proofs.«133153_j58557584114028_2_alg».proof.Proof.Gen.Kernel.Frame
import proofs.«133153_j58557584114028_2_alg».proof.Proof.Gen.KernelIdeal
import proofs.«133153_j58557584114028_2_alg».proof.Proof.Gen.KernelIdeal.Skeleton
import proofs.«133153_j58557584114028_2_alg».proof.Proof.Gen.KernelIdeal.Launch
import proofs.«133153_j58557584114028_2_alg».proof.Proof.Gen.KernelIdeal.Points
import proofs.«133153_j58557584114028_2_alg».proof.Proof.Gen.KernelIdeal.Frame
import proofs.«133153_j58557584114028_2_alg».proof.Proof.Gen.ReferenceIdeal
import proofs.«133153_j58557584114028_2_alg».proof.Proof.Gen.Pre_finite_inputs
import proofs.«133153_j58557584114028_2_alg».proof.Proof.KernelRun
import proofs.«133153_j58557584114028_2_alg».proof.Proof.KernelGlue
import proofs.«133153_j58557584114028_2_alg».proof.Proof.Region0
import proofs.«133153_j58557584114028_2_alg».proof.Proof.Region1
import proofs.«133153_j58557584114028_2_alg».proof.Proof.Region2
import proofs.«133153_j58557584114028_2_alg».proof.Proof.FinitePre
import proofs.«133153_j58557584114028_2_alg».proof.Proof.RefStages
import proofs.«133153_j58557584114028_2_alg».proof.Proof.Bridge
import Idealize.ShloMosaic.Adequacy
import Idealize.ShloMosaic.Init

noncomputable section

namespace Cert.Proof

open Idealize.ShloMosaic Idealize.SL.Sem

/-- The printed program runs and leaves its arguments as launched. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments, under the precondition, both programs run and end with the same result:
    the blocked program's result buffer holds `kernelOut` of the arguments, the reference's holds its last stage of the
    same arguments, and for real inputs the two are equal. -/
theorem algebraic : Cert.algebraic_KernelIdeal_ReferenceIdeal := by
  intro m ρ m' ρ' hpre hagree
  refine ⟨fun c => Cert.KernelIdeal.Glue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Glue.kernel_value m ρ Cert.Gcn.Region0.region0_final
          Cert.Gcn.Region1.region1_final Cert.Gcn.Region2.region2_final c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hx0, hx2, hx3, hx4, hx5⟩ := Cert.Gcn.FinitePre.real_of_pre _ _ _ _ _ _ (hpre c)
    rw [Cert.ReferenceIdeal.Stages.result_eq m' c, (hagree c).1, (hagree c).2.1, (hagree c).2.2.1, (hagree c).2.2.2.1,
      (hagree c).2.2.2.2.1, (hagree c).2.2.2.2.2]
    exact (Cert.Bridge.kernelOut_eq_reference _ _ _ _ _ _ hx0 hx2 hx3 hx4 hx5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
